-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S64x64 .f32) (main_arg20 : FVec F S64 .f32) (main_arg21 : FVec F S1x64 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1x64 .f32 := Host.absf main_arg21
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S1x64 .f32) (main_arg22 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S1x64 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S1x64 .f32) (main_arg22 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S1x64 .f32) (main_arg22 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64x64 .f32) (main_arg20 : FVec F S64 .f32) (main_arg21 : FVec F S1x64 .f32) (main_arg22 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S2000x64 : Shape := ⟨2, ![2000, 64]⟩
abbrev S2000x1 : Shape := ⟨2, ![2000, 1]⟩
abbrev S64x1 : Shape := ⟨2, ![64, 1]⟩
abbrev S1x1 : Shape := ⟨2, ![1, 1]⟩

abbrev nBuf : Space → Nat
  | .hbm => 121
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S1x64, .f32⟩
  | .hbm, ⟨22, _⟩ => ⟨S1, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x64, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .bf16⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .bf16⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .bf16⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S100000x64, .bf16⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x64, .bf16⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S_, .f32⟩
  | .hbm, ⟨97, _⟩ => ⟨S64, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S64x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S_, .f32⟩
  | .hbm, ⟨107, _⟩ => ⟨S1x64, .f32⟩
  | .hbm, ⟨108, _⟩ => ⟨S1x64, .f32⟩
  | .hbm, ⟨109, _⟩ => ⟨S64x1, .f32⟩
  | .hbm, ⟨110, _⟩ => ⟨S1x1, .f32⟩
  | .hbm, ⟨111, _⟩ => ⟨S1x1, .f32⟩
  | .hbm, ⟨112, _⟩ => ⟨S1x1, .f32⟩
  | .hbm, ⟨113, _⟩ => ⟨S1x1, .f32⟩
  | .hbm, ⟨114, _⟩ => ⟨S1x1, .f32⟩
  | .hbm, ⟨115, _⟩ => ⟨S_, .f32⟩
  | .hbm, ⟨116, _⟩ => ⟨S1x1, .f32⟩
  | .hbm, ⟨117, _⟩ => ⟨S1x1, .f32⟩
  | .hbm, ⟨118, _⟩ => ⟨S_, .f32⟩
  | .hbm, ⟨119, _⟩ => ⟨S1x1, .f32⟩
  | .hbm, ⟨120, _⟩ => ⟨S1x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S2000x64, .bf16⟩
  | .local _ .vmem, ⟨14, _⟩ => ⟨S2000x64, .bf16⟩
  | .local _ .vmem, ⟨15, _⟩ => ⟨S2000x64, .f32⟩
  | .local _ .vmem, ⟨16, _⟩ => ⟨S2000x64, .f32⟩
  | .local _ .vmem, ⟨17, _⟩ => ⟨S2000x64, .bf16⟩
  | .local _ .vmem, ⟨18, _⟩ => ⟨S2000x64, .bf16⟩
  | .local _ .vmem, ⟨19, _⟩ => ⟨S2000x1, .f32⟩
  | .local _ .vmem, ⟨20, _⟩ => ⟨S2000x1, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S2000x64, .bf16⟩
  | .local _ .vmem, ⟨29, _⟩ => ⟨S2000x64, .bf16⟩
  | .local _ .vmem, ⟨30, _⟩ => ⟨S2000x64, .f32⟩
  | .local _ .vmem, ⟨31, _⟩ => ⟨S2000x64, .f32⟩
  | .local _ .vmem, ⟨32, _⟩ => ⟨S2000x64, .bf16⟩
  | .local _ .vmem, ⟨33, _⟩ => ⟨S2000x64, .bf16⟩
  | .local _ .vmem, ⟨34, _⟩ => ⟨S2000x1, .f32⟩
  | .local _ .vmem, ⟨35, _⟩ => ⟨S2000x1, .f32⟩
  | .local _ .vmem, ⟨36, _⟩ => ⟨S64x64, .f32⟩
  | .local _ .vmem, ⟨37, _⟩ => ⟨S64x64, .f32⟩
  | .local _ .vmem, ⟨38, _⟩ => ⟨S1x64, .f32⟩
  | .local _ .vmem, ⟨39, _⟩ => ⟨S2000x64, .f32⟩
  | .local _ .vmem, ⟨40, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_11 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call0_cst : Ref sig .tc := ⟨.hbm, 106, rfl⟩
abbrev main_call0_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_13 : Ref sig .tc := ⟨.hbm, 115, rfl⟩
abbrev main_v75 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x64 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S2000x64 : S1x64.Broadcasts S2000x64
  packedbf16_S2000x64_S2000x64_0_0 : (Rect.unit (s := S2000x64) ![0, 0] S2000x64.size inb_S2000x64_S2000x64_0_0).PackedRows (EltTy.packing .bf16)
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S_S1x1 : S_.BroadcastsInDim S1x1 (![] : Fin 0 → Fin S1x1.rank)
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .bf16 = 32 ∨ (Rect.block (s := S100000x64) S2000x64.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .bf16 = 32 ∨ (Rect.block (s := S100000x64) S2000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S100000x64.size a
  hwx1_10 : ∀ i : grid1.Coords, EltTy.bits .bf16 = 32 ∨ (Rect.block (s := S100000x64) S2000x64.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .bf16 = 32 ∨ (Rect.block (s := S100000x64) S2000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v23) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v46) S2000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v57) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S64x1 : Shape := ⟨2, ![64, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64x64, .f32⟩
  | 20 => ⟨S64, .f32⟩
  | 21 => ⟨S1x64, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .f32⟩
  | 41 => ⟨S1600000x1, .f32⟩
  | 42 => ⟨S_, .f32⟩
  | 43 => ⟨S100000x1, .f32⟩
  | 44 => ⟨S1600000x1, .i32⟩
  | 45 => ⟨S100000x1, .f32⟩
  | 46 => ⟨S_, .f32⟩
  | 47 => ⟨S100000x1, .f32⟩
  | 48 => ⟨S100000x1, .f32⟩
  | 49 => ⟨S100000x64, .f32⟩
  | 50 => ⟨S100000x64, .f32⟩
  | 51 => ⟨S64x64, .f32⟩
  | 52 => ⟨S100000x64, .f32⟩
  | 53 => ⟨S1x64, .f32⟩
  | 54 => ⟨S100000x64, .f32⟩
  | 55 => ⟨S100000x64, .f32⟩
  | 56 => ⟨S64x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S_, .f32⟩
  | 92 => ⟨S1600000x1, .f32⟩
  | 93 => ⟨S_, .f32⟩
  | 94 => ⟨S100000x1, .f32⟩
  | 95 => ⟨S1600000x1, .i32⟩
  | 96 => ⟨S100000x1, .f32⟩
  | 97 => ⟨S_, .f32⟩
  | 98 => ⟨S100000x1, .f32⟩
  | 99 => ⟨S100000x1, .f32⟩
  | 100 => ⟨S100000x64, .f32⟩
  | 101 => ⟨S100000x64, .f32⟩
  | 102 => ⟨S64x64, .f32⟩
  | 103 => ⟨S100000x64, .f32⟩
  | 104 => ⟨S1x64, .f32⟩
  | 105 => ⟨S100000x64, .f32⟩
  | 106 => ⟨S100000x64, .f32⟩
  | 107 => ⟨S64x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S64, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S_, .f32⟩
  | 15 => ⟨S1600000x1, .f32⟩
  | 16 => ⟨S_, .f32⟩
  | 17 => ⟨S100000x1, .f32⟩
  | 18 => ⟨S1600000x1, .i32⟩
  | 19 => ⟨S100000x1, .f32⟩
  | 20 => ⟨S_, .f32⟩
  | 21 => ⟨S100000x1, .f32⟩
  | 22 => ⟨S100000x1, .f32⟩
  | 23 => ⟨S100000x64, .f32⟩
  | 24 => ⟨S100000x64, .f32⟩
  | 25 => ⟨S64x64, .f32⟩
  | 26 => ⟨S100000x64, .f32⟩
  | 27 => ⟨S1x64, .f32⟩
  | 28 => ⟨S100000x64, .f32⟩
  | 29 => ⟨S100000x64, .f32⟩
  | 30 => ⟨S64x64, .f32⟩
  | 31 => ⟨S100000x64, .f32⟩
  | 32 => ⟨S100000x64, .f32⟩
  | 33 => ⟨S_, .f32⟩
  | 34 => ⟨S64, .f32⟩
  | 35 => ⟨S1x64, .f32⟩
  | 36 => ⟨S_, .f32⟩
  | 37 => ⟨S1x64, .f32⟩
  | 38 => ⟨S1x64, .f32⟩
  | 39 => ⟨S64x64, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S64x1, .f32⟩
  | 47 => ⟨S1x1, .f32⟩
  | 48 => ⟨S1x1, .f32⟩
  | 49 => ⟨S1x1, .f32⟩
  | 50 => ⟨S1x1, .f32⟩
  | 51 => ⟨S1x1, .f32⟩
  | 52 => ⟨S_, .f32⟩
  | 53 => ⟨S1x1, .f32⟩
  | 54 => ⟨S1x1, .f32⟩
  | 55 => ⟨S_, .f32⟩
  | 56 => ⟨S1x1, .f32⟩
  | 57 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call0_cst : Ref sig .tc := ⟨.hbm, 75, rfl⟩
abbrev main_call0_v0 : Ref sig .tc := ⟨.hbm, 76, rfl⟩
abbrev main_v45 : Ref sig .tc := ⟨.hbm, 77, rfl⟩
abbrev main_c_5 : Ref sig .tc := ⟨.hbm, 78, rfl⟩
abbrev main_v46 : Ref sig .tc := ⟨.hbm, 79, rfl⟩
abbrev main_v47 : Ref sig .tc := ⟨.hbm, 80, rfl⟩
abbrev main_c_6 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_8 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_11 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call1_cst : Ref sig .tc := ⟨.hbm, 126, rfl⟩
abbrev main_call1_v0 : Ref sig .tc := ⟨.hbm, 127, rfl⟩
abbrev main_v87 : Ref sig .tc := ⟨.hbm, 128, rfl⟩
abbrev main_c_12 : Ref sig .tc := ⟨.hbm, 129, rfl⟩
abbrev main_v88 : Ref sig .tc := ⟨.hbm, 130, rfl⟩
abbrev main_v89 : Ref sig .tc := ⟨.hbm, 131, rfl⟩
abbrev main_c_13 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_14 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_15 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_17 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_18 : Ref sig .tc := ⟨.hbm, 161, rfl⟩
abbrev main_v114 : Ref sig .tc := ⟨.hbm, 162, rfl⟩
abbrev main_v115 : Ref sig .tc := ⟨.hbm, 163, rfl⟩
abbrev main_cst_19 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call2_cst : Ref sig .tc := ⟨.hbm, 171, rfl⟩
abbrev main_call2_v0 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_20 : Ref sig .tc := ⟨.hbm, 180, rfl⟩
abbrev main_v129 : Ref sig .tc := ⟨.hbm, 181, rfl⟩
abbrev main_v130 : Ref sig .tc := ⟨.hbm, 182, rfl⟩
abbrev main_cst_21 : Ref sig .tc := ⟨.hbm, 183, rfl⟩
abbrev main_v131 : Ref sig .tc := ⟨.hbm, 184, rfl⟩
abbrev main_v132 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  reducesTo_S100000x64_S64_d0 : S100000x64.ReducesTo [0] S64
  h_S_ : 0 < S_.numel
  bcast_S_S1x64 : S_.BroadcastsInDim S1x64 (![] : Fin 0 → Fin S1x64.rank)
  transposes_S1x64_S64x1_1_0 : S1x64.Transposes [1, 0] S64x1
  bcast_S1_S1x1_1 : S1.BroadcastsInDim S1x1 (![1] : Fin 1 → Fin S1x1.rank)
  bcast_S_S1x1 : S_.BroadcastsInDim S1x1 (![] : Fin 0 → Fin S1x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KernelRun.lean ====
/-
  The kernel program's run with its result named.

  The program is nine segments in a row: a stretch of host operations, a region, a stretch, a region, a stretch,
  a region, and three stretches. Every weakly fair execution terminates without a fault, the arguments end as
  launched, and the result buffer ends at the value the fold of the segments leaves in it: each stretch applies
  its operations to the buffer contents, each region replaces its output array by what its write-backs leave and
  changes nothing else.
-/
import proofs.«164285_j20323785244835_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations leaves a buffer none of them writes as it was. -/
macro "keeps_host " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

set_option backward.isDefEq.respectTransparency.types false in
theorem run_result : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c)⟩)

/-- Region 0 changes its output array only: every other buffer holds at its exit what it held at its entry (an
    array the region only reads is never written back; a buffer that is no array of the region is not touched). -/
theorem W2_keep (c : Dev nD) (b : Ref sig .tc) (hb : b ≠ main_v29) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact (W2_arr m ρ c 4).trans (((dat0 (V1 m ρ) c).arrAt_in 4 rfl _).trans (A_eq0 (V1 m ρ) c 4))
    · exact (W2_arr m ρ c 5).trans (((dat0 (V1 m ρ) c).arrAt_in 5 rfl _).trans (A_eq0 (V1 m ρ) c 5))
    · exact (W2_arr m ρ c 6).trans (((dat0 (V1 m ρ) c).arrAt_in 6 rfl _).trans (A_eq0 (V1 m ρ) c 6))
    · exact (W2_arr m ρ c 7).trans (((dat0 (V1 m ρ) c).arrAt_in 7 rfl _).trans (A_eq0 (V1 m ρ) c 7))
    · exact (W2_arr m ρ c 8).trans (((dat0 (V1 m ρ) c).arrAt_in 8 rfl _).trans (A_eq0 (V1 m ρ) c 8))
    · exact (W2_arr m ρ c 9).trans (((dat0 (V1 m ρ) c).arrAt_in 9 rfl _).trans (A_eq0 (V1 m ρ) c 9))
    · exact absurd rfl hb

/-- Region 1 changes its output array only: every other buffer holds at its exit what it held at its entry (an
    array the region only reads is never written back; a buffer that is no array of the region is not touched). -/
theorem W4_keep (c : Dev nD) (b : Ref sig .tc) (hb : b ≠ main_v46) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact (W4_arr m ρ c 5).trans (((dat1 (V3 m ρ) c).arrAt_in 5 rfl _).trans (A_eq1 (V3 m ρ) c 5))
    · exact (W4_arr m ρ c 6).trans (((dat1 (V3 m ρ) c).arrAt_in 6 rfl _).trans (A_eq1 (V3 m ρ) c 6))
    · exact (W4_arr m ρ c 7).trans (((dat1 (V3 m ρ) c).arrAt_in 7 rfl _).trans (A_eq1 (V3 m ρ) c 7))
    · exact (W4_arr m ρ c 8).trans (((dat1 (V3 m ρ) c).arrAt_in 8 rfl _).trans (A_eq1 (V3 m ρ) c 8))
    · exact (W4_arr m ρ c 9).trans (((dat1 (V3 m ρ) c).arrAt_in 9 rfl _).trans (A_eq1 (V3 m ρ) c 9))
    · exact absurd rfl hb

/-- Region 2 changes its output array only: every other buffer holds at its exit what it held at its entry (an
    array the region only reads is never written back; a buffer that is no array of the region is not touched). -/
theorem W6_keep (c : Dev nD) (b : Ref sig .tc) (hb : b ≠ main_v59) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact (W6_arr m ρ c 5).trans (((dat2 (V5 m ρ) c).arrAt_in 5 rfl _).trans (A_eq2 (V5 m ρ) c 5))
    · exact absurd rfl hb

end Cert.KernelIdeal.Run

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibSageLayer.lean ====
/-
  One layer of a mean-aggregating graph convolution on the extended reals, entry by entry.

  For a node i with neighbour sum A(i,·), own features h(i,·) and neighbour count clipped below at one c(i),
  the layer's entry (i,j) is  sum_k (A(i,k) / c(i)) * wl(j,k) + bl(j) + sum_k h(i,k) * wr(j,k).
  A second form multiplies by a precomputed reciprocal ci(i) = 1 / c(i) instead of dividing, and adds the bias
  last. When every c(i) is a nonzero real the two forms are one function: dividing an extended real by a nonzero
  real IS multiplying by the real's reciprocal, and addition of extended reals is commutative and associative.
  No finiteness of A, h or the weights is used.
  Then batch normalisation by running statistics followed by the rectifier, entry by entry, and the laws
  that each of these, computed on a block of rows, gives the rows of the whole.
-/
import proofs.«164285_j20323785244835_2_alg».proof.Proof.LibDense

noncomputable section

open scoped BigOperators

namespace Cert.Sage

open Cert.Dense Idealize.ShloMosaic Idealize.ShloMosaic.ValueIdx

variable {M M' K N : ℕ}

/-- The one row of a one-row matrix, as a vector. -/
def rowOf (r : Mat 1 N) : Row N := fun j => r (ix2 (0 : Fin 1) (j 0))

theorem rowOf_apply (r : Mat 1 N) (q : Fin N) : rowOf r (ix1 q) = r (ix2 (0 : Fin 1) q) := rfl

/-- The layer with the neighbour sums DIVIDED by the clipped counts; the bias is added before the second product. -/
def convDiv (A h : Mat M K) (c : Mat M 1) (wl wr : Mat N K) (bl : Row N) : Mat M N := fun i =>
  ((∑ k : Fin K, Ideal.div (A (ix2 (i 0) k)) (c (ix2 (i 0) (0 : Fin 1))) * wl (ix2 (i 1) k)) + bl (ix1 (i 1)))
    + ∑ k : Fin K, h (ix2 (i 0) k) * wr (ix2 (i 1) k)

/-- The layer with the neighbour sums MULTIPLIED by a column of factors; the bias is added last. -/
def convMul (A h : Mat M K) (ci : Mat M 1) (wl wr : Mat N K) (bl : Row N) : Mat M N := fun i =>
  ((∑ k : Fin K, (A (ix2 (i 0) k) * ci (ix2 (i 0) (0 : Fin 1))) * wl (ix2 (i 1) k))
    + ∑ k : Fin K, h (ix2 (i 0) k) * wr (ix2 (i 1) k)) + bl (ix1 (i 1))

/-- Batch normalisation by running statistics (mean mu, variance v, scale g, shift be; eps inside the root),
    then the rectifier. -/
def bnRelu (eps : EReal) (mu v g be : Row N) (Y : Mat M N) : Mat M N := fun i =>
  max ((Y i - mu (ix1 (i 1))) * Ideal.rsqrt (v (ix1 (i 1)) + eps) * g (ix1 (i 1)) + be (ix1 (i 1))) 0

theorem convDiv_apply (A h : Mat M K) (c : Mat M 1) (wl wr : Mat N K) (bl : Row N) (p : Fin M) (q : Fin N) :
    convDiv A h c wl wr bl (ix2 p q)
      = ((∑ k : Fin K, Ideal.div (A (ix2 p k)) (c (ix2 p (0 : Fin 1))) * wl (ix2 q k)) + bl (ix1 q))
        + ∑ k : Fin K, h (ix2 p k) * wr (ix2 q k) := rfl

theorem convMul_apply (A h : Mat M K) (ci : Mat M 1) (wl wr : Mat N K) (bl : Row N) (p : Fin M) (q : Fin N) :
    convMul A h ci wl wr bl (ix2 p q)
      = ((∑ k : Fin K, (A (ix2 p k) * ci (ix2 p (0 : Fin 1))) * wl (ix2 q k))
        + ∑ k : Fin K, h (ix2 p k) * wr (ix2 q k)) + bl (ix1 q) := rfl

theorem bnRelu_apply (eps : EReal) (mu v g be : Row N) (Y : Mat M N) (p : Fin M) (q : Fin N) :
    bnRelu eps mu v g be Y (ix2 p q)
      = max ((Y (ix2 p q) - mu (ix1 q)) * Ideal.rsqrt (v (ix1 q) + eps) * g (ix1 q) + be (ix1 q)) 0 := rfl

/-- Multiplying by the reciprocal of a nonzero real count is dividing by it, for every extended real; with the
    sum reordered, the two forms of the layer are one function. -/
theorem convMul_eq_convDiv (A h : Mat M K) (c ci : Mat M 1) (wl wr : Mat N K) (bl : Row N)
    (hc : ∀ p : Fin M, ∃ r : ℝ, r ≠ 0 ∧ c (ix2 p (0 : Fin 1)) = (r : EReal))
    (hci : ∀ p : Fin M, ci (ix2 p (0 : Fin 1)) = Ideal.div 1 (c (ix2 p (0 : Fin 1)))) :
    convMul A h ci wl wr bl = convDiv A h c wl wr bl := by
  funext i
  obtain ⟨p, q, rfl⟩ : ∃ (p : Fin M) (q : Fin N), i = ix2 p q := ⟨i 0, i 1, eq_ix2 i⟩
  rw [convMul_apply, convDiv_apply]
  obtain ⟨r, hr, hcr⟩ := hc p
  rw [hci p, hcr]
  simp only [Ideal.div_coe hr, one_mul]
  exact add_right_comm _ _ _

/-- Rows of the multiplied form: on a block whose rows are rows ρ of the whole, it gives those rows of the whole. -/
theorem convMul_rows (A h : Mat M' K) (ci : Mat M' 1) (wl wr : Mat N K) (bl : Row N)
    (a b : Mat M K) (d : Mat M 1) (ρ : Fin M → Fin M')
    (ha : ∀ p k, a (ix2 p k) = A (ix2 (ρ p) k)) (hb : ∀ p k, b (ix2 p k) = h (ix2 (ρ p) k))
    (hd : ∀ p, d (ix2 p (0 : Fin 1)) = ci (ix2 (ρ p) (0 : Fin 1))) (p : Fin M) (q : Fin N) :
    convMul a b d wl wr bl (ix2 p q) = convMul A h ci wl wr bl (ix2 (ρ p) q) := by
  rw [convMul_apply, convMul_apply]
  simp only [ha, hb, hd]

/-- Rows of the normalised, rectified array. -/
theorem bnRelu_rows (eps : EReal) (mu v g be : Row N) (Y : Mat M' N) (y : Mat M N) (ρ : Fin M → Fin M')
    (hy : ∀ p q, y (ix2 p q) = Y (ix2 (ρ p) q)) (p : Fin M) (q : Fin N) :
    bnRelu eps mu v g be y (ix2 p q) = bnRelu eps mu v g be Y (ix2 (ρ p) q) := by
  rw [bnRelu_apply, bnRelu_apply, hy]

/-- The normalised, rectified layer on a block of rows gives those rows of the layer on the whole. -/
theorem bnRelu_convMul_rows (eps : EReal) (A h : Mat M' K) (ci : Mat M' 1) (wl wr : Mat N K) (bl mu v g be : Row N)
    (a b : Mat M K) (d : Mat M 1) (ρ : Fin M → Fin M')
    (ha : ∀ p k, a (ix2 p k) = A (ix2 (ρ p) k)) (hb : ∀ p k, b (ix2 p k) = h (ix2 (ρ p) k))
    (hd : ∀ p, d (ix2 p (0 : Fin 1)) = ci (ix2 (ρ p) (0 : Fin 1))) (p : Fin M) (q : Fin N) :
    bnRelu eps mu v g be (convMul a b d wl wr bl) (ix2 p q)
      = bnRelu eps mu v g be (convMul A h ci wl wr bl) (ix2 (ρ p) q) := by
  rw [bnRelu_apply, bnRelu_apply, convMul_rows A h ci wl wr bl a b d ρ ha hb hd]

end Cert.Sage

end
-- ==== Proof.KernelBodies.lean ====
/-
  What each of the three region bodies leaves in its output block, as one layer function of its input blocks.

  A body loads whole blocks, computes on them and stores one whole block, so its output block is the stored value.
  The stored value is read entry by entry: the neighbour sums are multiplied by a column of factors broadcast over
  the columns; the two weight matrices are transposed, so that entry (p, q) of a product into a zero accumulator is
  the sum over k of a(p, k) · w(q, k); the bias row is broadcast over the rows. This is the layer's linear part
  (the multiplied form, the bias added last). Regions 0 and 1 go on: subtract the running-mean row, multiply by the
  reciprocal root of the running-variance row plus epsilon, multiply by the scale row, add the shift row and take the
  maximum with zero, which is batch normalisation followed by the rectifier. Every change of float format and
  every cast of a shape to itself is the identity on the extended reals.
  The entry-by-entry lemmas are stated for a block of M rows, K contracted columns and N output columns.
-/
import proofs.«164285_j20323785244835_2_alg».proof.Proof.Gen.KernelIdeal.Frame
import proofs.«164285_j20323785244835_2_alg».proof.Proof.LibSageLayer

noncomputable section

open scoped BigOperators

namespace Cert.KernelIdeal.Body

open Cert.KernelIdeal Cert.KernelIdeal.Gen Cert.Dense Cert.Sage Idealize.ShloMosaic Idealize.ShloMosaic.ValueIdx

/-- The batch-norm epsilon, as the word both programs print. -/
abbrev epsW : EReal := Ideal.ofBits .f32 0x3727C5AC#32

/-! ## Entry by entry, on a block of M rows -/

section Generic

variable {M K N : ℕ}

/-- A column of M entries broadcast over K columns reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a block with a TRANSPOSED weight matrix, into a zero accumulator: entry (p, q) is the sum over k
    of a(p, k) · w(q, k). -/
theorem matmul_transpose_zero_apply {φ₁ φ₂ : FTy} (prec : Option ContractPrecision) (a : FVec Ideal ⟨2, ![M, K]⟩ φ₁)
    (w : FVec Ideal ⟨2, ![N, K]⟩ φ₂) (hT : (⟨2, ![N, K]⟩ : Shape).Transposes [1, 0] ⟨2, ![K, N]⟩) (p : Fin M) (q : Fin N) :
    matmul (DotDims.plain M K N) prec a (transpose ⟨2, ![K, N]⟩ [1, 0] w hT) (constant (F := Ideal) ⟨2, ![M, N]⟩ .f32 0x00000000#32) (ix2 p q)
      = ∑ k : Fin K, a (ix2 p k) * w (ix2 q k) := by
  rw [matmul_plain_zero]
  show ∑ k : Fin K, a (ix2 p k) * transpose ⟨2, ![K, N]⟩ [1, 0] w hT (ix2 k q) = _
  exact Finset.sum_congr rfl fun k _ => by rw [transpose_ix2_apply]

/-- The layer's linear part as the vector unit computes it on a block of M rows: the neighbour sums times the
    column of factors, times the transposed left weights, plus the own features times the transposed right
    weights, plus the bias row over the rows. Changes of float format are the identity on the extended reals. -/
theorem conv_block_eq (prec : Option ContractPrecision) (hlt : FTy.bits .bf16 < FTy.bits .f32)
    (x0 : FVec Ideal ⟨2, ![M, K]⟩ .f32) (x1 : FVec Ideal ⟨2, ![M, K]⟩ .bf16) (x2 : FVec Ideal ⟨2, ![M, 1]⟩ .f32)
    (x3 x4 : FVec Ideal ⟨2, ![N, K]⟩ .f32) (x5 : FVec Ideal ⟨2, ![1, N]⟩ .f32)
    (hc : (⟨2, ![M, 1]⟩ : Shape).Broadcasts ⟨2, ![M, K]⟩)
    (hT : (⟨2, ![N, K]⟩ : Shape).Transposes [1, 0] ⟨2, ![K, N]⟩)
    (hb : (⟨2, ![1, N]⟩ : Shape).Broadcasts ⟨2, ![M, N]⟩) :
    addf (addf (matmul (DotDims.plain M K N) prec (truncf .bf16 (mulf x0 (broadcastTo ⟨2, ![M, K]⟩ x2 hc)) hlt)
                  (transpose ⟨2, ![K, N]⟩ [1, 0] (truncf .bf16 x3 hlt) hT) (constant (F := Ideal) ⟨2, ![M, N]⟩ .f32 0x00000000#32))
               (matmul (DotDims.plain M K N) prec x1
                  (transpose ⟨2, ![K, N]⟩ [1, 0] (truncf .bf16 x4 hlt) hT) (constant (F := Ideal) ⟨2, ![M, N]⟩ .f32 0x00000000#32)))
         (broadcastTo ⟨2, ![M, N]⟩ x5 hb)
      = convMul x0 x1 x2 x3 x4 (rowOf x5) := by
  funext i
  obtain ⟨p, q, rfl⟩ : ∃ (p : Fin M) (q : Fin N), i = ix2 p q := ⟨i 0, i 1, eq_ix2 i⟩
  rw [convMul_apply, rowOf_apply]
  show (matmul (DotDims.plain M K N) prec (truncf .bf16 (mulf x0 (broadcastTo ⟨2, ![M, K]⟩ x2 hc)) hlt)
          (transpose ⟨2, ![K, N]⟩ [1, 0] (truncf .bf16 x3 hlt) hT) (constant (F := Ideal) ⟨2, ![M, N]⟩ .f32 0x00000000#32) (ix2 p q)
        + matmul (DotDims.plain M K N) prec x1
          (transpose ⟨2, ![K, N]⟩ [1, 0] (truncf .bf16 x4 hlt) hT) (constant (F := Ideal) ⟨2, ![M, N]⟩ .f32 0x00000000#32) (ix2 p q))
        + broadcastTo ⟨2, ![M, N]⟩ x5 hb (ix2 p q) = _
  rw [matmul_transpose_zero_apply, matmul_transpose_zero_apply, broadcastTo_1b_ab_apply]
  refine congrArg (fun s => s + _ + _) (Finset.sum_congr rfl fun k _ => ?_)
  show (x0 (ix2 p k) * broadcastTo ⟨2, ![M, K]⟩ x2 hc (ix2 p k)) * x3 (ix2 q k) = _
  rw [broadcastTo_a1_ab_apply]

/-- Batch normalisation by running statistics and the rectifier as the vector unit computes them on a block:
    subtract the mean row, multiply by the reciprocal root of the variance row plus the epsilon word, by the scale
    row, add the shift row, take the maximum with the zero word. -/
theorem bn_block_eq (hlt : FTy.bits .bf16 < FTy.bits .f32) (Y : FVec Ideal ⟨2, ![M, N]⟩ .f32)
    (g be mu v : FVec Ideal ⟨2, ![1, N]⟩ .f32) (hb : (⟨2, ![1, N]⟩ : Shape).Broadcasts ⟨2, ![M, N]⟩) :
    truncf .bf16 (maximumf (addf (mulf (mulf (subf Y (broadcastTo ⟨2, ![M, N]⟩ mu hb))
        (broadcastTo ⟨2, ![M, N]⟩ (rsqrt (addf v (broadcast ⟨2, ![1, N]⟩ (Scalar.ofBits (F := Ideal) .f32 0x3727C5AC#32)))) hb))
        (broadcastTo ⟨2, ![M, N]⟩ g hb)) (broadcastTo ⟨2, ![M, N]⟩ be hb))
        (broadcast ⟨2, ![M, N]⟩ (Scalar.ofBits (F := Ideal) .f32 0x00000000#32))) hlt
      = bnRelu epsW (rowOf mu) (rowOf v) (rowOf g) (rowOf be) Y := by
  funext i
  obtain ⟨p, q, rfl⟩ : ∃ (p : Fin M) (q : Fin N), i = ix2 p q := ⟨i 0, i 1, eq_ix2 i⟩
  rw [bnRelu_apply, rowOf_apply, rowOf_apply, rowOf_apply, rowOf_apply]
  show max ((Y (ix2 p q) - broadcastTo ⟨2, ![M, N]⟩ mu hb (ix2 p q))
        * broadcastTo ⟨2, ![M, N]⟩ (rsqrt (addf v (broadcast ⟨2, ![1, N]⟩ (Scalar.ofBits (F := Ideal) .f32 0x3727C5AC#32)))) hb (ix2 p q)
        * broadcastTo ⟨2, ![M, N]⟩ g hb (ix2 p q) + broadcastTo ⟨2, ![M, N]⟩ be hb (ix2 p q)) (Ideal.ofBits .f32 0x00000000#32) = _
  rw [broadcastTo_1b_ab_apply, broadcastTo_1b_ab_apply, broadcastTo_1b_ab_apply, broadcastTo_1b_ab_apply, Ideal.ofBits_zero_f32]
  rfl

end Generic

/-! ## The stored values of the three bodies -/

/-- Region 2's stored value: the layer's linear part of its input blocks. -/
theorem k2_pay1_eq (x2 : Vec Ideal S2000x1 .f32) (x0 : Vec Ideal S2000x64 .f32) (x1 : Vec Ideal S2000x64 .bf16)
    (x3 x4 : Vec Ideal S64x64 .f32) (x5 : Vec Ideal S1x64 .f32) :
    k2_pay1 (F := Ideal) x2 x0 x1 x3 x4 x5 = convMul x0 x1 x2 x3 x4 (rowOf x5) := by
  unfold k2_pay1
  simp only [shapeCast_self]
  exact conv_block_eq _ _ x0 x1 x2 x3 x4 x5 _ _ _

/-- Region 1's stored value: the normalised, rectified linear part of its input blocks. -/
theorem k1_pay1_eq (x2 : Vec Ideal S2000x1 .f32) (x0 : Vec Ideal S2000x64 .f32) (x1 : Vec Ideal S2000x64 .bf16)
    (x3 x4 : Vec Ideal S64x64 .f32) (x5 x6 x7 x8 x9 : Vec Ideal S1x64 .f32) :
    k1_pay1 (F := Ideal) (k1_pay2 x6) (k1_pay3 x7) (k1_pay4 x2 x0 x1 x3 x4 x5 x8) (k1_pay5 x9)
      = bnRelu epsW (rowOf x8) (rowOf x9) (rowOf x6) (rowOf x7) (convMul x0 x1 x2 x3 x4 (rowOf x5)) := by
  unfold k1_pay1 k1_pay2 k1_pay3 k1_pay4 k1_pay5
  simp only [shapeCast_self]
  refine (bn_block_eq _ _ x6 x7 x8 x9 _).trans ?_
  exact congrArg _ (conv_block_eq _ _ x0 x1 x2 x3 x4 x5 _ _ _)

/-- Region 0's stored value: the same, its own features read in the wide format and narrowed, which is the
    identity on the extended reals. -/
theorem k0_pay1_eq (x2 : Vec Ideal S2000x1 .f32) (x0 x1 : Vec Ideal S2000x64 .f32)
    (x3 x4 : Vec Ideal S64x64 .f32) (x5 x6 x7 x8 x9 : Vec Ideal S1x64 .f32) :
    k0_pay1 (F := Ideal) (k0_pay2 x6) (k0_pay3 x7) (k0_pay4 x2 x0 x1 x3 x4 x5 x8) (k0_pay5 x9)
      = bnRelu epsW (rowOf x8) (rowOf x9) (rowOf x6) (rowOf x7) (convMul x0 x1 x2 x3 x4 (rowOf x5)) := by
  unfold k0_pay1 k0_pay2 k0_pay3 k0_pay4 k0_pay5
  simp only [shapeCast_self]
  refine (bn_block_eq _ _ x6 x7 x8 x9 _).trans ?_
  exact congrArg _ (conv_block_eq _ _ x0 (truncf .bf16 x1 _) x2 x3 x4 x5 _ _ _)

/-! ## The output blocks -/

/-- The zero offsets of a whole-block rectangle, as the constant function. -/
theorem offsets_eq_zero : (![0, 0] : Fin 2 → Nat) = fun _ => 0 := funext fun a => by fin_cases a <;> rfl

theorem out0_10_eq (x0 : Vec Ideal S2000x64 .f32) (x1 : Vec Ideal S2000x64 .f32) (x2 : Vec Ideal S2000x1 .f32)
    (x3 x4 : Vec Ideal S64x64 .f32) (x5 x6 x7 x8 x9 : Vec Ideal S1x64 .f32) :
    out0_10 (F := Ideal) x0 x1 x2 x3 x4 x5 x6 x7 x8 x9
      = bnRelu epsW (rowOf x8) (rowOf x9) (rowOf x6) (rowOf x7) (convMul x0 x1 x2 x3 x4 (rowOf x5)) := by
  unfold out0_10
  rw [View.canon_unit_zero offsets_eq_zero]
  simp only [View.ld_unit_zero (S := S2000x64) offsets_eq_zero, View.ld_unit_zero (S := S2000x1) offsets_eq_zero,
    View.ld_unit_zero (S := S64x64) offsets_eq_zero, View.ld_unit_zero (S := S1x64) offsets_eq_zero]
  exact k0_pay1_eq x2 x0 x1 x3 x4 x5 x6 x7 x8 x9

theorem out1_10_eq (x0 : Vec Ideal S2000x64 .f32) (x1 : Vec Ideal S2000x64 .bf16) (x2 : Vec Ideal S2000x1 .f32)
    (x3 x4 : Vec Ideal S64x64 .f32) (x5 x6 x7 x8 x9 : Vec Ideal S1x64 .f32) :
    out1_10 (F := Ideal) x0 x1 x2 x3 x4 x5 x6 x7 x8 x9
      = bnRelu epsW (rowOf x8) (rowOf x9) (rowOf x6) (rowOf x7) (convMul x0 x1 x2 x3 x4 (rowOf x5)) := by
  unfold out1_10
  rw [View.canon_unit_zero offsets_eq_zero]
  simp only [View.ld_unit_zero (S := S2000x64) offsets_eq_zero, View.ld_unit_zero (S := S2000x1) offsets_eq_zero,
    View.ld_unit_zero (S := S64x64) offsets_eq_zero, View.ld_unit_zero (S := S1x64) offsets_eq_zero]
  exact k1_pay1_eq x2 x0 x1 x3 x4 x5 x6 x7 x8 x9

theorem out2_6_eq (x0 : Vec Ideal S2000x64 .f32) (x1 : Vec Ideal S2000x64 .bf16) (x2 : Vec Ideal S2000x1 .f32)
    (x3 x4 : Vec Ideal S64x64 .f32) (x5 : Vec Ideal S1x64 .f32) :
    out2_6 (F := Ideal) x0 x1 x2 x3 x4 x5 = convMul x0 x1 x2 x3 x4 (rowOf x5) := by
  unfold out2_6
  rw [View.canon_unit_zero offsets_eq_zero]
  simp only [View.ld_unit_zero (S := S2000x64) offsets_eq_zero, View.ld_unit_zero (S := S2000x1) offsets_eq_zero,
    View.ld_unit_zero (S := S64x64) offsets_eq_zero, View.ld_unit_zero (S := S1x64) offsets_eq_zero]
  exact k2_pay1_eq x2 x0 x1 x3 x4 x5

end Cert.KernelIdeal.Body

end
-- ==== Proof.KernelArrays.lean ====
/-
  What each of the three regions leaves in its output array, as ONE function of the arrays it finds at its entry.

  A region runs its body at 50 grid points; at point t the body sees rows t*2000 … t*2000+1999 of the neighbour
  sums, of the features and of the reciprocal-count column, and the whole weight matrices and parameter rows, and
  writes rows t*2000 … t*2000+1999 of the output. The layer's entry (i,j) depends on row i of the moving arrays
  only, so the block the body writes at point t is block t of the layer computed on the whole arrays; the 50
  blocks tile the 100000 rows, so the output array ends as that layer. Stated at any contents V of the buffers at
  the region's entry.
-/
import proofs.«164285_j20323785244835_2_alg».proof.Proof.Gen.KernelIdeal.Frame
import proofs.«164285_j20323785244835_2_alg».proof.Proof.KernelBodies

set_option maxRecDepth 16384

noncomputable section

namespace Cert.KernelIdeal.Arrays

open Cert.KernelIdeal Cert.KernelIdeal.Gen Cert.KernelIdeal.Body Cert.Dense Cert.Sage
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## Region 0 -/

/-- The printed index maps of region 0, decided over its 50 grid points: the neighbour sums, the features, the
    count column and the output move one block of 2000 rows per point; the weights and the rows stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row p of point t's block is row t*2000 + p of the array. -/
def rowAt0 (t : Fin cfg0.N) (p : Fin 2000) : Fin 100000 :=
  ⟨t.val * 2000 + p.val, by have ht : t.val < 50 := lt_of_lt_of_eq t.isLt N_0; have hp := p.isLt; omega⟩

/-- Region 0's layer as ONE function of the arrays the region finds at its entry. -/
def layer0 (c : Dev nD) : Mat 100000 64 :=
  bnRelu epsW (rowOf (V c main_v27)) (rowOf (V c main_v28)) (rowOf (V c main_v25)) (rowOf (V c main_v26))
    (convMul (V c main_v23) (V c main_arg0) (V c main_v11) (V c main_arg2) (V c main_arg4) (rowOf (V c main_v24)))

/-- Window 0's block at point t holds rows t*2000 … t*2000+1999 of its array. -/
theorem blk0_0 (c : Dev nD) (t : Fin cfg0.N) (p : Fin 2000) (k : Fin 64) :
    iblk0 V c 0 t (ix2 p k) = V c main_v23 (ix2 (rowAt0 t p) k) := by
  obtain ⟨e0a, e0b, e1a, e1b, e2a, e2b, e3a, e3b, e4a, e4b, e5a, e5b, e6a, e6b, e7a, e7b, e8a, e8b, e9a, e9b, e10a, e10b⟩ := idx0 t
  show V c main_v23 (((cfg0.win 0).blk t).view.emb (ix2 p k)) = _
  refine congrArg (V c main_v23) ?_
  funext a; apply Fin.ext
  match a with
  | ⟨0, _⟩ => show win0_0.index t (0 : Fin 2) * 2000 + 1 * p.val = t.val * 2000 + p.val; rw [e0a]; omega
  | ⟨1, _⟩ => show win0_0.index t (1 : Fin 2) * 64 + 1 * k.val = k.val; rw [e0b]; omega

/-- Window 1's block at point t holds rows t*2000 … t*2000+1999 of its array. -/
theorem blk0_1 (c : Dev nD) (t : Fin cfg0.N) (p : Fin 2000) (k : Fin 64) :
    iblk0 V c 1 t (ix2 p k) = V c main_arg0 (ix2 (rowAt0 t p) k) := by
  obtain ⟨e0a, e0b, e1a, e1b, e2a, e2b, e3a, e3b, e4a, e4b, e5a, e5b, e6a, e6b, e7a, e7b, e8a, e8b, e9a, e9b, e10a, e10b⟩ := idx0 t
  show V c main_arg0 (((cfg0.win 1).blk t).view.emb (ix2 p k)) = _
  refine congrArg (V c main_arg0) ?_
  funext a; apply Fin.ext
  match a with
  | ⟨0, _⟩ => show win0_1.index t (0 : Fin 2) * 2000 + 1 * p.val = t.val * 2000 + p.val; rw [e1a]; omega
  | ⟨1, _⟩ => show win0_1.index t (1 : Fin 2) * 64 + 1 * k.val = k.val; rw [e1b]; omega

/-- Window 2's block at point t holds entries t*2000 … of the count column. -/
theorem blk0_2 (c : Dev nD) (t : Fin cfg0.N) (p : Fin 2000) :
    iblk0 V c 2 t (ix2 p (0 : Fin 1)) = V c main_v11 (ix2 (rowAt0 t p) (0 : Fin 1)) := by
  obtain ⟨e0a, e0b, e1a, e1b, e2a, e2b, e3a, e3b, e4a, e4b, e5a, e5b, e6a, e6b, e7a, e7b, e8a, e8b, e9a, e9b, e10a, e10b⟩ := idx0 t
  show V c main_v11 (((cfg0.win 2).blk t).view.emb (ix2 p (0 : Fin 1))) = _
  refine congrArg (V c main_v11) ?_
  funext a; apply Fin.ext
  match a with
  | ⟨0, _⟩ => show win0_2.index t (0 : Fin 2) * 2000 + 1 * p.val = t.val * 2000 + p.val; rw [e2a]; omega
  | ⟨1, _⟩ => show win0_2.index t (1 : Fin 2) * 1 + 1 * 0 = 0; rw [e2b]

/-- Window 3 is resident: its block at every point is its whole array. -/
theorem res0_3 (c : Dev nD) (t : Fin cfg0.N) : iblk0 V c 3 t = V c main_arg2 := by
  obtain ⟨e0a, e0b, e1a, e1b, e2a, e2b, e3a, e3b, e4a, e4b, e5a, e5b, e6a, e6b, e7a, e7b, e8a, e8b, e9a, e9b, e10a, e10b⟩ := idx0 t
  funext y
  show V c main_arg2 (((cfg0.win 3).blk t).view.emb y) = V c main_arg2 y
  refine congrArg (V c main_arg2) ?_
  funext a; apply Fin.ext
  match a with
  | ⟨0, _⟩ => show win0_3.index t (0 : Fin 2) * 64 + 1 * (y 0).val = (y 0).val; rw [e3a]; omega
  | ⟨1, _⟩ => show win0_3.index t (1 : Fin 2) * 64 + 1 * (y 1).val = (y 1).val; rw [e3b]; omega

/-- Window 4 is resident: its block at every point is its whole array. -/
theorem res0_4 (c : Dev nD) (t : Fin cfg0.N) : iblk0 V c 4 t = V c main_arg4 := by
  obtain ⟨e0a, e0b, e1a, e1b, e2a, e2b, e3a, e3b, e4a, e4b, e5a, e5b, e6a, e6b, e7a, e7b, e8a, e8b, e9a, e9b, e10a, e10b⟩ := idx0 t
  funext y
  show V c main_arg4 (((cfg0.win 4).blk t).view.emb y) = V c main_arg4 y
  refine congrArg (V c main_arg4) ?_
  funext a; apply Fin.ext
  match a with
  | ⟨0, _⟩ => show win0_4.index t (0 : Fin 2) * 64 + 1 * (y 0).val = (y 0).val; rw [e4a]; omega
  | ⟨1, _⟩ => show win0_4.index t (1 : Fin 2) * 64 + 1 * (y 1).val = (y 1).val; rw [e4b]; omega

/-- Window 5 is resident: its block at every point is its whole array. -/
theorem res0_5 (c : Dev nD) (t : Fin cfg0.N) : iblk0 V c 5 t = V c main_v24 := by
  obtain ⟨e0a, e0b, e1a, e1b, e2a, e2b, e3a, e3b, e4a, e4b, e5a, e5b, e6a, e6b, e7a, e7b, e8a, e8b, e9a, e9b, e10a, e10b⟩ := idx0 t
  funext y
  show V c main_v24 (((cfg0.win 5).blk t).view.emb y) = V c main_v24 y
  refine congrArg (V c main_v24) ?_
  funext a; apply Fin.ext
  match a with
  | ⟨0, _⟩ => show win0_5.index t (0 : Fin 2) * 1 + 1 * (y 0).val = (y 0).val; rw [e5a]; omega
  | ⟨1, _⟩ => show win0_5.index t (1 : Fin 2) * 64 + 1 * (y 1).val = (y 1).val; rw [e5b]; omega

/-- Window 6 is resident: its block at every point is its whole array. -/
theorem res0_6 (c : Dev nD) (t : Fin cfg0.N) : iblk0 V c 6 t = V c main_v25 := by
  obtain ⟨e0a, e0b, e1a, e1b, e2a, e2b, e3a, e3b, e4a, e4b, e5a, e5b, e6a, e6b, e7a, e7b, e8a, e8b, e9a, e9b, e10a, e10b⟩ := idx0 t
  funext y
  show V c main_v25 (((cfg0.win 6).blk t).view.emb y) = V c main_v25 y
  refine congrArg (V c main_v25) ?_
  funext a; apply Fin.ext
  match a with
  | ⟨0, _⟩ => show win0_6.index t (0 : Fin 2) * 1 + 1 * (y 0).val = (y 0).val; rw [e6a]; omega
  | ⟨1, _⟩ => show win0_6.index t (1 : Fin 2) * 64 + 1 * (y 1).val = (y 1).val; rw [e6b]; omega

/-- Window 7 is resident: its block at every point is its whole array. -/
theorem res0_7 (c : Dev nD) (t : Fin cfg0.N) : iblk0 V c 7 t = V c main_v26 := by
  obtain ⟨e0a, e0b, e1a, e1b, e2a, e2b, e3a, e3b, e4a, e4b, e5a, e5b, e6a, e6b, e7a, e7b, e8a, e8b, e9a, e9b, e10a, e10b⟩ := idx0 t
  funext y
  show V c main_v26 (((cfg0.win 7).blk t).view.emb y) = V c main_v26 y
  refine congrArg (V c main_v26) ?_
  funext a; apply Fin.ext
  match a with
  | ⟨0, _⟩ => show win0_7.index t (0 : Fin 2) * 1 + 1 * (y 0).val = (y 0).val; rw [e7a]; omega
  | ⟨1, _⟩ => show win0_7.index t (1 : Fin 2) * 64 + 1 * (y 1).val = (y 1).val; rw [e7b]; omega

/-- Window 8 is resident: its block at every point is its whole array. -/
theorem res0_8 (c : Dev nD) (t : Fin cfg0.N) : iblk0 V c 8 t = V c main_v27 := by
  obtain ⟨e0a, e0b, e1a, e1b, e2a, e2b, e3a, e3b, e4a, e4b, e5a, e5b, e6a, e6b, e7a, e7b, e8a, e8b, e9a, e9b, e10a, e10b⟩ := idx0 t
  funext y
  show V c main_v27 (((cfg0.win 8).blk t).view.emb y) = V c main_v27 y
  refine congrArg (V c main_v27) ?_
  funext a; apply Fin.ext
  match a with
  | ⟨0, _⟩ => show win0_8.index t (0 : Fin 2) * 1 + 1 * (y 0).val = (y 0).val; rw [e8a]; omega
  | ⟨1, _⟩ => show win0_8.index t (1 : Fin 2) * 64 + 1 * (y 1).val = (y 1).val; rw [e8b]; omega

/-- Window 9 is resident: its block at every point is its whole array. -/
theorem res0_9 (c : Dev nD) (t : Fin cfg0.N) : iblk0 V c 9 t = V c main_v28 := by
  obtain ⟨e0a, e0b, e1a, e1b, e2a, e2b, e3a, e3b, e4a, e4b, e5a, e5b, e6a, e6b, e7a, e7b, e8a, e8b, e9a, e9b, e10a, e10b⟩ := idx0 t
  funext y
  show V c main_v28 (((cfg0.win 9).blk t).view.emb y) = V c main_v28 y
  refine congrArg (V c main_v28) ?_
  funext a; apply Fin.ext
  match a with
  | ⟨0, _⟩ => show win0_9.index t (0 : Fin 2) * 1 + 1 * (y 0).val = (y 0).val; rw [e9a]; omega
  | ⟨1, _⟩ => show win0_9.index t (1 : Fin 2) * 64 + 1 * (y 1).val = (y 1).val; rw [e9b]; omega

/-- What point t writes back is block t of the layer of the whole arrays. -/
theorem flushed0 (c : Dev nD) (t : Fin cfg0.N) :
    (dat0 V c).flushed 10 t = ((cfg0.win 10).blk t).view.read (Elt Ideal) (layer0 V c) := by
  show (cfg0.win 10).cut (grid0.coords t) ((dat0 V c).after 10 t) = _
  rw [after0_10, out0_10_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)]
  rw [res0_3 V c t, res0_4 V c t, res0_5 V c t, res0_6 V c t, res0_7 V c t, res0_8 V c t, res0_9 V c t]
  obtain ⟨e0a, e0b, e1a, e1b, e2a, e2b, e3a, e3b, e4a, e4b, e5a, e5b, e6a, e6b, e7a, e7b, e8a, e8b, e9a, e9b, e10a, e10b⟩ := idx0 t
  funext j
  obtain ⟨p, q, rfl⟩ : ∃ (p : Fin 2000) (q : Fin 64), j = ix2 p q := ⟨j 0, j 1, eq_ix2 j⟩
  have hemb : ((cfg0.win 10).blk t).view.emb (ix2 p q) = ix2 (rowAt0 t p) q := by
    funext a; apply Fin.ext
    match a with
    | ⟨0, _⟩ => show win0_10.index t (0 : Fin 2) * 2000 + 1 * p.val = t.val * 2000 + p.val; rw [e10a]; omega
    | ⟨1, _⟩ => show win0_10.index t (1 : Fin 2) * 64 + 1 * q.val = q.val; rw [e10b]; omega
  show _ = layer0 V c (((cfg0.win 10).blk t).view.emb (ix2 p q))
  rw [hemb]
  unfold layer0
  exact bnRelu_convMul_rows epsW (V c main_v23) (V c main_arg0) (V c main_v11) (V c main_arg2) (V c main_arg4) (rowOf (V c main_v24))
    (rowOf (V c main_v27)) (rowOf (V c main_v28)) (rowOf (V c main_v25)) (rowOf (V c main_v26))
    (iblk0 V c 0 t) (iblk0 V c 1 t) (iblk0 V c 2 t) (rowAt0 t)
    (blk0_0 V c t) (blk0_1 V c t) (blk0_2 V c t) p q

/-- An index of the output array is in point t's block iff each coordinate is in the block's range. -/
theorem mem_blk0 (t : Fin cfg0.N) (i : S100000x64.Idx) :
    i ∈ ((cfg0.win 10).blk t).view.set ↔ ∀ a : Fin 2, win0_10.index t a * S2000x64.size a ≤ (i a).val
      ∧ (i a).val < win0_10.index t a * S2000x64.size a + S2000x64.size a := by
  show i ∈ ((View.whole main_v29).slice (win0_10.rect t)).set ↔ _
  rw [View.set_slice_whole, Rect.mem_set_unit]
  exact Iff.rfl

/-- The 50 blocks of 2000 rows cover the 100000 rows: row r is in the block of point r / 2000. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : (i 0).val / 2000 < cfg0.N := by show (i 0).val / 2000 < grid0.N; rw [N_0]; omega
  refine ⟨⟨(i 0).val / 2000, hN⟩, flush0_10 _, ?_⟩
  rw [mem_blk0]
  obtain ⟨e0a, e0b, e1a, e1b, e2a, e2b, e3a, e3b, e4a, e4b, e5a, e5b, e6a, e6b, e7a, e7b, e8a, e8b, e9a, e9b, e10a, e10b⟩ := idx0 ⟨(i 0).val / 2000, hN⟩
  intro a
  match a with
  | ⟨0, _⟩ =>
    show win0_10.index ⟨(i 0).val / 2000, hN⟩ (0 : Fin 2) * 2000 ≤ (i 0).val
      ∧ (i 0).val < win0_10.index ⟨(i 0).val / 2000, hN⟩ (0 : Fin 2) * 2000 + 2000
    rw [e10a]; show (i 0).val / 2000 * 2000 ≤ (i 0).val ∧ (i 0).val < (i 0).val / 2000 * 2000 + 2000; omega
  | ⟨1, _⟩ =>
    show win0_10.index ⟨(i 0).val / 2000, hN⟩ (1 : Fin 2) * 64 ≤ (i 1).val
      ∧ (i 1).val < win0_10.index ⟨(i 0).val / 2000, hN⟩ (1 : Fin 2) * 64 + 64
    rw [e10b]; omega

/-- THE ARRAY region 0 leaves: the layer of the arrays it found, whatever they are. -/
theorem arr0 (c : Dev nD) : (dat0 V c).arrAt 10 cfg0.N = layer0 V c :=
  (dat0 V c).arrAt_eq_of_cover 10 (layer0 V c) (fun t _ => flushed0 V c t) (cover0)

/-! ## Region 1 -/

/-- The printed index maps of region 1, decided over its 50 grid points: the neighbour sums, the features, the
    count column and the output move one block of 2000 rows per point; the weights and the rows stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row p of point t's block is row t*2000 + p of the array. -/
def rowAt1 (t : Fin cfg1.N) (p : Fin 2000) : Fin 100000 :=
  ⟨t.val * 2000 + p.val, by have ht : t.val < 50 := lt_of_lt_of_eq t.isLt N_1; have hp := p.isLt; omega⟩

/-- Region 1's layer as ONE function of the arrays the region finds at its entry. -/
def layer1 (c : Dev nD) : Mat 100000 64 :=
  bnRelu epsW (rowOf (V c main_v44)) (rowOf (V c main_v45)) (rowOf (V c main_v42)) (rowOf (V c main_v43))
    (convMul (V c main_v40) (V c main_v29) (V c main_v11) (V c main_arg5) (V c main_arg7) (rowOf (V c main_v41)))

/-- Window 0's block at point t holds rows t*2000 … t*2000+1999 of its array. -/
theorem blk1_0 (c : Dev nD) (t : Fin cfg1.N) (p : Fin 2000) (k : Fin 64) :
    iblk1 V c 0 t (ix2 p k) = V c main_v40 (ix2 (rowAt1 t p) k) := by
  obtain ⟨e0a, e0b, e1a, e1b, e2a, e2b, e3a, e3b, e4a, e4b, e5a, e5b, e6a, e6b, e7a, e7b, e8a, e8b, e9a, e9b, e10a, e10b⟩ := idx1 t
  show V c main_v40 (((cfg1.win 0).blk t).view.emb (ix2 p k)) = _
  refine congrArg (V c main_v40) ?_
  funext a; apply Fin.ext
  match a with
  | ⟨0, _⟩ => show win1_0.index t (0 : Fin 2) * 2000 + 1 * p.val = t.val * 2000 + p.val; rw [e0a]; omega
  | ⟨1, _⟩ => show win1_0.index t (1 : Fin 2) * 64 + 1 * k.val = k.val; rw [e0b]; omega

/-- Window 1's block at point t holds rows t*2000 … t*2000+1999 of its array. -/
theorem blk1_1 (c : Dev nD) (t : Fin cfg1.N) (p : Fin 2000) (k : Fin 64) :
    iblk1 V c 1 t (ix2 p k) = V c main_v29 (ix2 (rowAt1 t p) k) := by
  obtain ⟨e0a, e0b, e1a, e1b, e2a, e2b, e3a, e3b, e4a, e4b, e5a, e5b, e6a, e6b, e7a, e7b, e8a, e8b, e9a, e9b, e10a, e10b⟩ := idx1 t
  show V c main_v29 (((cfg1.win 1).blk t).view.emb (ix2 p k)) = _
  refine congrArg (V c main_v29) ?_
  funext a; apply Fin.ext
  match a with
  | ⟨0, _⟩ => show win1_1.index t (0 : Fin 2) * 2000 + 1 * p.val = t.val * 2000 + p.val; rw [e1a]; omega
  | ⟨1, _⟩ => show win1_1.index t (1 : Fin 2) * 64 + 1 * k.val = k.val; rw [e1b]; omega

/-- Window 2's block at point t holds entries t*2000 … of the count column. -/
theorem blk1_2 (c : Dev nD) (t : Fin cfg1.N) (p : Fin 2000) :
    iblk1 V c 2 t (ix2 p (0 : Fin 1)) = V c main_v11 (ix2 (rowAt1 t p) (0 : Fin 1)) := by
  obtain ⟨e0a, e0b, e1a, e1b, e2a, e2b, e3a, e3b, e4a, e4b, e5a, e5b, e6a, e6b, e7a, e7b, e8a, e8b, e9a, e9b, e10a, e10b⟩ := idx1 t
  show V c main_v11 (((cfg1.win 2).blk t).view.emb (ix2 p (0 : Fin 1))) = _
  refine congrArg (V c main_v11) ?_
  funext a; apply Fin.ext
  match a with
  | ⟨0, _⟩ => show win1_2.index t (0 : Fin 2) * 2000 + 1 * p.val = t.val * 2000 + p.val; rw [e2a]; omega
  | ⟨1, _⟩ => show win1_2.index t (1 : Fin 2) * 1 + 1 * 0 = 0; rw [e2b]

/-- Window 3 is resident: its block at every point is its whole array. -/
theorem res1_3 (c : Dev nD) (t : Fin cfg1.N) : iblk1 V c 3 t = V c main_arg5 := by
  obtain ⟨e0a, e0b, e1a, e1b, e2a, e2b, e3a, e3b, e4a, e4b, e5a, e5b, e6a, e6b, e7a, e7b, e8a, e8b, e9a, e9b, e10a, e10b⟩ := idx1 t
  funext y
  show V c main_arg5 (((cfg1.win 3).blk t).view.emb y) = V c main_arg5 y
  refine congrArg (V c main_arg5) ?_
  funext a; apply Fin.ext
  match a with
  | ⟨0, _⟩ => show win1_3.index t (0 : Fin 2) * 64 + 1 * (y 0).val = (y 0).val; rw [e3a]; omega
  | ⟨1, _⟩ => show win1_3.index t (1 : Fin 2) * 64 + 1 * (y 1).val = (y 1).val; rw [e3b]; omega

/-- Window 4 is resident: its block at every point is its whole array. -/
theorem res1_4 (c : Dev nD) (t : Fin cfg1.N) : iblk1 V c 4 t = V c main_arg7 := by
  obtain ⟨e0a, e0b, e1a, e1b, e2a, e2b, e3a, e3b, e4a, e4b, e5a, e5b, e6a, e6b, e7a, e7b, e8a, e8b, e9a, e9b, e10a, e10b⟩ := idx1 t
  funext y
  show V c main_arg7 (((cfg1.win 4).blk t).view.emb y) = V c main_arg7 y
  refine congrArg (V c main_arg7) ?_
  funext a; apply Fin.ext
  match a with
  | ⟨0, _⟩ => show win1_4.index t (0 : Fin 2) * 64 + 1 * (y 0).val = (y 0).val; rw [e4a]; omega
  | ⟨1, _⟩ => show win1_4.index t (1 : Fin 2) * 64 + 1 * (y 1).val = (y 1).val; rw [e4b]; omega

/-- Window 5 is resident: its block at every point is its whole array. -/
theorem res1_5 (c : Dev nD) (t : Fin cfg1.N) : iblk1 V c 5 t = V c main_v41 := by
  obtain ⟨e0a, e0b, e1a, e1b, e2a, e2b, e3a, e3b, e4a, e4b, e5a, e5b, e6a, e6b, e7a, e7b, e8a, e8b, e9a, e9b, e10a, e10b⟩ := idx1 t
  funext y
  show V c main_v41 (((cfg1.win 5).blk t).view.emb y) = V c main_v41 y
  refine congrArg (V c main_v41) ?_
  funext a; apply Fin.ext
  match a with
  | ⟨0, _⟩ => show win1_5.index t (0 : Fin 2) * 1 + 1 * (y 0).val = (y 0).val; rw [e5a]; omega
  | ⟨1, _⟩ => show win1_5.index t (1 : Fin 2) * 64 + 1 * (y 1).val = (y 1).val; rw [e5b]; omega

/-- Window 6 is resident: its block at every point is its whole array. -/
theorem res1_6 (c : Dev nD) (t : Fin cfg1.N) : iblk1 V c 6 t = V c main_v42 := by
  obtain ⟨e0a, e0b, e1a, e1b, e2a, e2b, e3a, e3b, e4a, e4b, e5a, e5b, e6a, e6b, e7a, e7b, e8a, e8b, e9a, e9b, e10a, e10b⟩ := idx1 t
  funext y
  show V c main_v42 (((cfg1.win 6).blk t).view.emb y) = V c main_v42 y
  refine congrArg (V c main_v42) ?_
  funext a; apply Fin.ext
  match a with
  | ⟨0, _⟩ => show win1_6.index t (0 : Fin 2) * 1 + 1 * (y 0).val = (y 0).val; rw [e6a]; omega
  | ⟨1, _⟩ => show win1_6.index t (1 : Fin 2) * 64 + 1 * (y 1).val = (y 1).val; rw [e6b]; omega

/-- Window 7 is resident: its block at every point is its whole array. -/
theorem res1_7 (c : Dev nD) (t : Fin cfg1.N) : iblk1 V c 7 t = V c main_v43 := by
  obtain ⟨e0a, e0b, e1a, e1b, e2a, e2b, e3a, e3b, e4a, e4b, e5a, e5b, e6a, e6b, e7a, e7b, e8a, e8b, e9a, e9b, e10a, e10b⟩ := idx1 t
  funext y
  show V c main_v43 (((cfg1.win 7).blk t).view.emb y) = V c main_v43 y
  refine congrArg (V c main_v43) ?_
  funext a; apply Fin.ext
  match a with
  | ⟨0, _⟩ => show win1_7.index t (0 : Fin 2) * 1 + 1 * (y 0).val = (y 0).val; rw [e7a]; omega
  | ⟨1, _⟩ => show win1_7.index t (1 : Fin 2) * 64 + 1 * (y 1).val = (y 1).val; rw [e7b]; omega

/-- Window 8 is resident: its block at every point is its whole array. -/
theorem res1_8 (c : Dev nD) (t : Fin cfg1.N) : iblk1 V c 8 t = V c main_v44 := by
  obtain ⟨e0a, e0b, e1a, e1b, e2a, e2b, e3a, e3b, e4a, e4b, e5a, e5b, e6a, e6b, e7a, e7b, e8a, e8b, e9a, e9b, e10a, e10b⟩ := idx1 t
  funext y
  show V c main_v44 (((cfg1.win 8).blk t).view.emb y) = V c main_v44 y
  refine congrArg (V c main_v44) ?_
  funext a; apply Fin.ext
  match a with
  | ⟨0, _⟩ => show win1_8.index t (0 : Fin 2) * 1 + 1 * (y 0).val = (y 0).val; rw [e8a]; omega
  | ⟨1, _⟩ => show win1_8.index t (1 : Fin 2) * 64 + 1 * (y 1).val = (y 1).val; rw [e8b]; omega

/-- Window 9 is resident: its block at every point is its whole array. -/
theorem res1_9 (c : Dev nD) (t : Fin cfg1.N) : iblk1 V c 9 t = V c main_v45 := by
  obtain ⟨e0a, e0b, e1a, e1b, e2a, e2b, e3a, e3b, e4a, e4b, e5a, e5b, e6a, e6b, e7a, e7b, e8a, e8b, e9a, e9b, e10a, e10b⟩ := idx1 t
  funext y
  show V c main_v45 (((cfg1.win 9).blk t).view.emb y) = V c main_v45 y
  refine congrArg (V c main_v45) ?_
  funext a; apply Fin.ext
  match a with
  | ⟨0, _⟩ => show win1_9.index t (0 : Fin 2) * 1 + 1 * (y 0).val = (y 0).val; rw [e9a]; omega
  | ⟨1, _⟩ => show win1_9.index t (1 : Fin 2) * 64 + 1 * (y 1).val = (y 1).val; rw [e9b]; omega

/-- What point t writes back is block t of the layer of the whole arrays. -/
theorem flushed1 (c : Dev nD) (t : Fin cfg1.N) :
    (dat1 V c).flushed 10 t = ((cfg1.win 10).blk t).view.read (Elt Ideal) (layer1 V c) := by
  show (cfg1.win 10).cut (grid1.coords t) ((dat1 V c).after 10 t) = _
  rw [after1_10, out1_10_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)]
  rw [res1_3 V c t, res1_4 V c t, res1_5 V c t, res1_6 V c t, res1_7 V c t, res1_8 V c t, res1_9 V c t]
  obtain ⟨e0a, e0b, e1a, e1b, e2a, e2b, e3a, e3b, e4a, e4b, e5a, e5b, e6a, e6b, e7a, e7b, e8a, e8b, e9a, e9b, e10a, e10b⟩ := idx1 t
  funext j
  obtain ⟨p, q, rfl⟩ : ∃ (p : Fin 2000) (q : Fin 64), j = ix2 p q := ⟨j 0, j 1, eq_ix2 j⟩
  have hemb : ((cfg1.win 10).blk t).view.emb (ix2 p q) = ix2 (rowAt1 t p) q := by
    funext a; apply Fin.ext
    match a with
    | ⟨0, _⟩ => show win1_10.index t (0 : Fin 2) * 2000 + 1 * p.val = t.val * 2000 + p.val; rw [e10a]; omega
    | ⟨1, _⟩ => show win1_10.index t (1 : Fin 2) * 64 + 1 * q.val = q.val; rw [e10b]; omega
  show _ = layer1 V c (((cfg1.win 10).blk t).view.emb (ix2 p q))
  rw [hemb]
  unfold layer1
  exact bnRelu_convMul_rows epsW (V c main_v40) (V c main_v29) (V c main_v11) (V c main_arg5) (V c main_arg7) (rowOf (V c main_v41))
    (rowOf (V c main_v44)) (rowOf (V c main_v45)) (rowOf (V c main_v42)) (rowOf (V c main_v43))
    (iblk1 V c 0 t) (iblk1 V c 1 t) (iblk1 V c 2 t) (rowAt1 t)
    (blk1_0 V c t) (blk1_1 V c t) (blk1_2 V c t) p q

/-- An index of the output array is in point t's block iff each coordinate is in the block's range. -/
theorem mem_blk1 (t : Fin cfg1.N) (i : S100000x64.Idx) :
    i ∈ ((cfg1.win 10).blk t).view.set ↔ ∀ a : Fin 2, win1_10.index t a * S2000x64.size a ≤ (i a).val
      ∧ (i a).val < win1_10.index t a * S2000x64.size a + S2000x64.size a := by
  show i ∈ ((View.whole main_v46).slice (win1_10.rect t)).set ↔ _
  rw [View.set_slice_whole, Rect.mem_set_unit]
  exact Iff.rfl

/-- The 50 blocks of 2000 rows cover the 100000 rows: row r is in the block of point r / 2000. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : (i 0).val / 2000 < cfg1.N := by show (i 0).val / 2000 < grid1.N; rw [N_1]; omega
  refine ⟨⟨(i 0).val / 2000, hN⟩, flush1_10 _, ?_⟩
  rw [mem_blk1]
  obtain ⟨e0a, e0b, e1a, e1b, e2a, e2b, e3a, e3b, e4a, e4b, e5a, e5b, e6a, e6b, e7a, e7b, e8a, e8b, e9a, e9b, e10a, e10b⟩ := idx1 ⟨(i 0).val / 2000, hN⟩
  intro a
  match a with
  | ⟨0, _⟩ =>
    show win1_10.index ⟨(i 0).val / 2000, hN⟩ (0 : Fin 2) * 2000 ≤ (i 0).val
      ∧ (i 0).val < win1_10.index ⟨(i 0).val / 2000, hN⟩ (0 : Fin 2) * 2000 + 2000
    rw [e10a]; show (i 0).val / 2000 * 2000 ≤ (i 0).val ∧ (i 0).val < (i 0).val / 2000 * 2000 + 2000; omega
  | ⟨1, _⟩ =>
    show win1_10.index ⟨(i 0).val / 2000, hN⟩ (1 : Fin 2) * 64 ≤ (i 1).val
      ∧ (i 1).val < win1_10.index ⟨(i 0).val / 2000, hN⟩ (1 : Fin 2) * 64 + 64
    rw [e10b]; omega

/-- THE ARRAY region 1 leaves: the layer of the arrays it found, whatever they are. -/
theorem arr1 (c : Dev nD) : (dat1 V c).arrAt 10 cfg1.N = layer1 V c :=
  (dat1 V c).arrAt_eq_of_cover 10 (layer1 V c) (fun t _ => flushed1 V c t) (cover1)

/-! ## Region 2 -/

/-- The printed index maps of region 2, decided over its 50 grid points: the neighbour sums, the features, the
    count column and the output move one block of 2000 rows per point; the weights and the rows stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block is row t*2000 + p of the array. -/
def rowAt2 (t : Fin cfg2.N) (p : Fin 2000) : Fin 100000 :=
  ⟨t.val * 2000 + p.val, by have ht : t.val < 50 := lt_of_lt_of_eq t.isLt N_2; have hp := p.isLt; omega⟩

/-- Region 2's layer as ONE function of the arrays the region finds at its entry. -/
def layer2 (c : Dev nD) : Mat 100000 64 :=
  convMul (V c main_v57) (V c main_v46) (V c main_v11) (V c main_arg8) (V c main_arg10) (rowOf (V c main_v58))

/-- Window 0's block at point t holds rows t*2000 … t*2000+1999 of its array. -/
theorem blk2_0 (c : Dev nD) (t : Fin cfg2.N) (p : Fin 2000) (k : Fin 64) :
    iblk2 V c 0 t (ix2 p k) = V c main_v57 (ix2 (rowAt2 t p) k) := by
  obtain ⟨e0a, e0b, e1a, e1b, e2a, e2b, e3a, e3b, e4a, e4b, e5a, e5b, e6a, e6b⟩ := idx2 t
  show V c main_v57 (((cfg2.win 0).blk t).view.emb (ix2 p k)) = _
  refine congrArg (V c main_v57) ?_
  funext a; apply Fin.ext
  match a with
  | ⟨0, _⟩ => show win2_0.index t (0 : Fin 2) * 2000 + 1 * p.val = t.val * 2000 + p.val; rw [e0a]; omega
  | ⟨1, _⟩ => show win2_0.index t (1 : Fin 2) * 64 + 1 * k.val = k.val; rw [e0b]; omega

/-- Window 1's block at point t holds rows t*2000 … t*2000+1999 of its array. -/
theorem blk2_1 (c : Dev nD) (t : Fin cfg2.N) (p : Fin 2000) (k : Fin 64) :
    iblk2 V c 1 t (ix2 p k) = V c main_v46 (ix2 (rowAt2 t p) k) := by
  obtain ⟨e0a, e0b, e1a, e1b, e2a, e2b, e3a, e3b, e4a, e4b, e5a, e5b, e6a, e6b⟩ := idx2 t
  show V c main_v46 (((cfg2.win 1).blk t).view.emb (ix2 p k)) = _
  refine congrArg (V c main_v46) ?_
  funext a; apply Fin.ext
  match a with
  | ⟨0, _⟩ => show win2_1.index t (0 : Fin 2) * 2000 + 1 * p.val = t.val * 2000 + p.val; rw [e1a]; omega
  | ⟨1, _⟩ => show win2_1.index t (1 : Fin 2) * 64 + 1 * k.val = k.val; rw [e1b]; omega

/-- Window 2's block at point t holds entries t*2000 … of the count column. -/
theorem blk2_2 (c : Dev nD) (t : Fin cfg2.N) (p : Fin 2000) :
    iblk2 V c 2 t (ix2 p (0 : Fin 1)) = V c main_v11 (ix2 (rowAt2 t p) (0 : Fin 1)) := by
  obtain ⟨e0a, e0b, e1a, e1b, e2a, e2b, e3a, e3b, e4a, e4b, e5a, e5b, e6a, e6b⟩ := idx2 t
  show V c main_v11 (((cfg2.win 2).blk t).view.emb (ix2 p (0 : Fin 1))) = _
  refine congrArg (V c main_v11) ?_
  funext a; apply Fin.ext
  match a with
  | ⟨0, _⟩ => show win2_2.index t (0 : Fin 2) * 2000 + 1 * p.val = t.val * 2000 + p.val; rw [e2a]; omega
  | ⟨1, _⟩ => show win2_2.index t (1 : Fin 2) * 1 + 1 * 0 = 0; rw [e2b]

/-- Window 3 is resident: its block at every point is its whole array. -/
theorem res2_3 (c : Dev nD) (t : Fin cfg2.N) : iblk2 V c 3 t = V c main_arg8 := by
  obtain ⟨e0a, e0b, e1a, e1b, e2a, e2b, e3a, e3b, e4a, e4b, e5a, e5b, e6a, e6b⟩ := idx2 t
  funext y
  show V c main_arg8 (((cfg2.win 3).blk t).view.emb y) = V c main_arg8 y
  refine congrArg (V c main_arg8) ?_
  funext a; apply Fin.ext
  match a with
  | ⟨0, _⟩ => show win2_3.index t (0 : Fin 2) * 64 + 1 * (y 0).val = (y 0).val; rw [e3a]; omega
  | ⟨1, _⟩ => show win2_3.index t (1 : Fin 2) * 64 + 1 * (y 1).val = (y 1).val; rw [e3b]; omega

/-- Window 4 is resident: its block at every point is its whole array. -/
theorem res2_4 (c : Dev nD) (t : Fin cfg2.N) : iblk2 V c 4 t = V c main_arg10 := by
  obtain ⟨e0a, e0b, e1a, e1b, e2a, e2b, e3a, e3b, e4a, e4b, e5a, e5b, e6a, e6b⟩ := idx2 t
  funext y
  show V c main_arg10 (((cfg2.win 4).blk t).view.emb y) = V c main_arg10 y
  refine congrArg (V c main_arg10) ?_
  funext a; apply Fin.ext
  match a with
  | ⟨0, _⟩ => show win2_4.index t (0 : Fin 2) * 64 + 1 * (y 0).val = (y 0).val; rw [e4a]; omega
  | ⟨1, _⟩ => show win2_4.index t (1 : Fin 2) * 64 + 1 * (y 1).val = (y 1).val; rw [e4b]; omega

/-- Window 5 is resident: its block at every point is its whole array. -/
theorem res2_5 (c : Dev nD) (t : Fin cfg2.N) : iblk2 V c 5 t = V c main_v58 := by
  obtain ⟨e0a, e0b, e1a, e1b, e2a, e2b, e3a, e3b, e4a, e4b, e5a, e5b, e6a, e6b⟩ := idx2 t
  funext y
  show V c main_v58 (((cfg2.win 5).blk t).view.emb y) = V c main_v58 y
  refine congrArg (V c main_v58) ?_
  funext a; apply Fin.ext
  match a with
  | ⟨0, _⟩ => show win2_5.index t (0 : Fin 2) * 1 + 1 * (y 0).val = (y 0).val; rw [e5a]; omega
  | ⟨1, _⟩ => show win2_5.index t (1 : Fin 2) * 64 + 1 * (y 1).val = (y 1).val; rw [e5b]; omega

/-- What point t writes back is block t of the layer of the whole arrays. -/
theorem flushed2 (c : Dev nD) (t : Fin cfg2.N) :
    (dat2 V c).flushed 6 t = ((cfg2.win 6).blk t).view.read (Elt Ideal) (layer2 V c) := by
  show (cfg2.win 6).cut (grid2.coords t) ((dat2 V c).after 6 t) = _
  rw [after2_6, out2_6_eq (iblk2 V c 0 t) (iblk2 V c 1 t) (iblk2 V c 2 t) (iblk2 V c 3 t) (iblk2 V c 4 t) (iblk2 V c 5 t)]
  rw [res2_3 V c t, res2_4 V c t, res2_5 V c t]
  obtain ⟨e0a, e0b, e1a, e1b, e2a, e2b, e3a, e3b, e4a, e4b, e5a, e5b, e6a, e6b⟩ := idx2 t
  funext j
  obtain ⟨p, q, rfl⟩ : ∃ (p : Fin 2000) (q : Fin 64), j = ix2 p q := ⟨j 0, j 1, eq_ix2 j⟩
  have hemb : ((cfg2.win 6).blk t).view.emb (ix2 p q) = ix2 (rowAt2 t p) q := by
    funext a; apply Fin.ext
    match a with
    | ⟨0, _⟩ => show win2_6.index t (0 : Fin 2) * 2000 + 1 * p.val = t.val * 2000 + p.val; rw [e6a]; omega
    | ⟨1, _⟩ => show win2_6.index t (1 : Fin 2) * 64 + 1 * q.val = q.val; rw [e6b]; omega
  show _ = layer2 V c (((cfg2.win 6).blk t).view.emb (ix2 p q))
  rw [hemb]
  unfold layer2
  exact convMul_rows (V c main_v57) (V c main_v46) (V c main_v11) (V c main_arg8) (V c main_arg10) (rowOf (V c main_v58))
    (iblk2 V c 0 t) (iblk2 V c 1 t) (iblk2 V c 2 t) (rowAt2 t)
    (blk2_0 V c t) (blk2_1 V c t) (blk2_2 V c t) p q

/-- An index of the output array is in point t's block iff each coordinate is in the block's range. -/
theorem mem_blk2 (t : Fin cfg2.N) (i : S100000x64.Idx) :
    i ∈ ((cfg2.win 6).blk t).view.set ↔ ∀ a : Fin 2, win2_6.index t a * S2000x64.size a ≤ (i a).val
      ∧ (i a).val < win2_6.index t a * S2000x64.size a + S2000x64.size a := by
  show i ∈ ((View.whole main_v59).slice (win2_6.rect t)).set ↔ _
  rw [View.set_slice_whole, Rect.mem_set_unit]
  exact Iff.rfl

/-- The 50 blocks of 2000 rows cover the 100000 rows: row r is in the block of point r / 2000. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : (i 0).val / 2000 < cfg2.N := by show (i 0).val / 2000 < grid2.N; rw [N_2]; omega
  refine ⟨⟨(i 0).val / 2000, hN⟩, flush2_6 _, ?_⟩
  rw [mem_blk2]
  obtain ⟨e0a, e0b, e1a, e1b, e2a, e2b, e3a, e3b, e4a, e4b, e5a, e5b, e6a, e6b⟩ := idx2 ⟨(i 0).val / 2000, hN⟩
  intro a
  match a with
  | ⟨0, _⟩ =>
    show win2_6.index ⟨(i 0).val / 2000, hN⟩ (0 : Fin 2) * 2000 ≤ (i 0).val
      ∧ (i 0).val < win2_6.index ⟨(i 0).val / 2000, hN⟩ (0 : Fin 2) * 2000 + 2000
    rw [e6a]; show (i 0).val / 2000 * 2000 ≤ (i 0).val ∧ (i 0).val < (i 0).val / 2000 * 2000 + 2000; omega
  | ⟨1, _⟩ =>
    show win2_6.index ⟨(i 0).val / 2000, hN⟩ (1 : Fin 2) * 64 ≤ (i 1).val
      ∧ (i 1).val < win2_6.index ⟨(i 0).val / 2000, hN⟩ (1 : Fin 2) * 64 + 64
    rw [e6b]; omega

/-- THE ARRAY region 2 leaves: the layer of the arrays it found, whatever they are. -/
theorem arr2 (c : Dev nD) : (dat2 V c).arrAt 6 cfg2.N = layer2 V c :=
  (dat2 V c).arrAt_eq_of_cover 6 (layer2 V c) (fun t _ => flushed2 V c t) (cover2)

end Cert.KernelIdeal.Arrays

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibCount.lean ====
/-
  The clipped neighbour count is a nonzero real.

  Scattering the constant one into a zero column by an index column adds, at row p, one for every update row whose
  index names p: the count of such rows, a natural number. Its maximum with one is therefore a real number not
  below one, in particular not zero — which is what dividing by it, or multiplying by its reciprocal, needs.
-/
import proofs.«164285_j20323785244835_2_alg».proof.Proof.LibIndexed

noncomputable section

open scoped BigOperators

namespace Cert.Count

open Idealize.ShloMosaic Idealize.ShloMosaic.ValueIdx Cert.Indexed

/-- A finite sum of ones on the extended reals is the number of terms, a real. -/
theorem sum_one_real {ι : Type*} (s : Finset ι) : ∑ _r ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The count column clipped below at one: a real not below one at every row. -/
theorem clipped_count_real {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (hx : ∀ i, x i = 0) (hu : ∀ j, upd j = 1) (p : Fin N) :
    ∃ r : ℝ, r ≠ 0 ∧ max (Ideal.hostScatterAdd (rowScatter N 1 M wf) x idx upd (ix2 p (0 : Fin 1))) 1 = (r : EReal) := by
  rw [rowScatterAdd_apply, hx, zero_add]
  simp only [hu]
  rw [sum_one_real]
  refine ⟨max ((Finset.univ.filter fun r : Fin M => Names (idx (ix2 r (0 : Fin 1))) p).card : ℝ) 1, ?_, ?_⟩
  · exact ne_of_gt (lt_of_lt_of_le one_pos (le_max_right _ _))
  · exact (EReal.coe_strictMono.monotone.map_max (a := ((Finset.univ.filter fun r : Fin M => Names (idx (ix2 r (0 : Fin 1))) p).card : ℝ)) (b := 1)).symm

end Cert.Count

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.KernelCount.lean ====
/-
  The neighbour count of the kernel program.

  The count column is a scatter of the constant one into a zero column by the destination-index column, so at a row
  it is the number of edges whose destination is that row; clipped below at one it is a real not below one, hence a
  nonzero real. The reciprocal column is the constant one divided by the clipped count, entry by entry. A vector of
  64 entries cast to a one-row matrix has the vector as its one row.
  A scalar word broadcast to a whole shape reads that word at every index; the words of zero and of one denote
  0 and 1.
-/
import proofs.«164285_j20323785244835_2_alg».proof.Proof.Gen.KernelIdeal.Frame
import proofs.«164285_j20323785244835_2_alg».proof.Proof.LibSageLayer
import proofs.«164285_j20323785244835_2_alg».proof.Proof.LibCount
import proofs.«164285_j20323785244835_2_alg».proof.Proof.LibLiterals

noncomputable section

namespace Cert.KernelIdeal.Count

open Cert.KernelIdeal Cert.KernelIdeal.Facts₀ Cert.Dense Cert.Sage Idealize.ShloMosaic Idealize.ShloMosaic.ValueIdx

/-- The clipped count column, as the program's host operations compute it from the destination-index column. -/
def cmax (dcol : (⟨S1600000x1, .i32⟩ : BufTy).Contents (Elt Ideal)) : (⟨S100000x1, .f32⟩ : BufTy).Contents (Elt Ideal) :=
  maximumf (F := Ideal) (Host.scatterAdd scatter_S100000x1_S1600000x1_S1600000x1_1_0_0_1
      (broadcastInDim S100000x1 ![] bcast_S_S100000x1 (constant S_ .f32 0x00000000#32)) dcol
      (broadcastInDim S1600000x1 ![] bcast_S_S1600000x1 (constant S_ .f32 0x3F800000#32)))
    (broadcastInDim S100000x1 ![] bcast_S_S100000x1 (constant S_ .f32 0x3F800000#32))

/-- A scalar word broadcast to a whole shape reads, at every index, the extended real the word denotes. -/
theorem splat_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w := by
  rw [broadcastInDim_apply ![] h _ i ix0 (fun ax => ax.elim0)]
  rfl

/-- For a column of N rows and M indices: scattering the broadcast one-word into the broadcast zero-word and taking
    the maximum with the broadcast one-word gives a nonzero real at every row. -/
theorem clipped_scatter_real {N M : ℕ} (wf : ScatterDims.WF ⟨2, ![N, 1]⟩ ⟨2, ![M, 1]⟩ ⟨2, ![M, 1]⟩ [1] [0] [0] 1)
    (d : ScatterDims ⟨2, ![N, 1]⟩ ⟨2, ![M, 1]⟩ ⟨2, ![M, 1]⟩) (hd : d = Cert.Indexed.rowScatter N 1 M wf)
    (h0 : (⟨0, ![]⟩ : Shape).BroadcastsInDim ⟨2, ![N, 1]⟩ ![]) (h1 : (⟨0, ![]⟩ : Shape).BroadcastsInDim ⟨2, ![M, 1]⟩ ![])
    (idx : IVec ⟨2, ![M, 1]⟩ 32) (p : Fin N) :
    ∃ r : ℝ, r ≠ 0 ∧
      maximumf (F := Ideal) (Host.scatterAdd d
          (broadcastInDim ⟨2, ![N, 1]⟩ ![] h0 (constant ⟨0, ![]⟩ .f32 0x00000000#32)) idx
          (broadcastInDim ⟨2, ![M, 1]⟩ ![] h1 (constant ⟨0, ![]⟩ .f32 0x3F800000#32)))
        (broadcastInDim ⟨2, ![N, 1]⟩ ![] h0 (constant ⟨0, ![]⟩ .f32 0x3F800000#32)) (ix2 p (0 : Fin 1)) = (r : EReal) := by
  subst hd
  obtain ⟨r, hr, e⟩ := Cert.Count.clipped_count_real wf
    (broadcastInDim ⟨2, ![N, 1]⟩ ![] h0 (constant (F := Ideal) ⟨0, ![]⟩ .f32 0x00000000#32)) idx
    (broadcastInDim ⟨2, ![M, 1]⟩ ![] h1 (constant (F := Ideal) ⟨0, ![]⟩ .f32 0x3F800000#32))
    (fun i => (splat_apply h0 0x00000000#32 i).trans Cert.LibLiterals.ofBits_f32_zero)
    (fun j => (splat_apply h1 0x3F800000#32 j).trans Cert.LibLiterals.ofBits_f32_one) p
  refine ⟨r, hr, ?_⟩
  rw [← e]
  show max (Ideal.hostScatterAdd (Cert.Indexed.rowScatter N 1 M wf)
        (broadcastInDim ⟨2, ![N, 1]⟩ ![] h0 (constant (F := Ideal) ⟨0, ![]⟩ .f32 0x00000000#32)) idx
        (broadcastInDim ⟨2, ![M, 1]⟩ ![] h1 (constant (F := Ideal) ⟨0, ![]⟩ .f32 0x3F800000#32)) (ix2 p (0 : Fin 1)))
      (broadcastInDim ⟨2, ![N, 1]⟩ ![] h0 (constant (F := Ideal) ⟨0, ![]⟩ .f32 0x3F800000#32) (ix2 p (0 : Fin 1))) = _
  rw [splat_apply, Cert.LibLiterals.ofBits_f32_one]

/-- The printed scatter record is the row scatter of a column of 100000 rows by 1600000 indices. -/
theorem scatter_eq_rowScatter : scatter_S100000x1_S1600000x1_S1600000x1_1_0_0_1
    = Cert.Indexed.rowScatter 100000 1 1600000 scatter_S100000x1_S1600000x1_S1600000x1_1_0_0_1_wf := rfl

theorem cmax_real (dcol : (⟨S1600000x1, .i32⟩ : BufTy).Contents (Elt Ideal)) (p : Fin 100000) :
    ∃ r : ℝ, r ≠ 0 ∧ cmax dcol (ix2 p (0 : Fin 1)) = (r : EReal) := by
  unfold cmax
  exact clipped_scatter_real scatter_S100000x1_S1600000x1_S1600000x1_1_0_0_1_wf
    scatter_S100000x1_S1600000x1_S1600000x1_1_0_0_1 scatter_eq_rowScatter bcast_S_S100000x1 bcast_S_S1600000x1 dcol p

theorem cinv_apply (cm : (⟨S100000x1, .f32⟩ : BufTy).Contents (Elt Ideal)) (p : Fin 100000) :
    Host.divf (F := Ideal) (broadcastInDim S100000x1 ![] bcast_S_S100000x1 (constant S_ .f32 0x3F800000#32)) cm (ix2 p (0 : Fin 1))
      = Ideal.div 1 (cm (ix2 p (0 : Fin 1))) := by
  show Ideal.div (broadcastInDim S100000x1 ![] bcast_S_S100000x1 (constant (F := Ideal) S_ .f32 0x3F800000#32) (ix2 p (0 : Fin 1)))
      (cm (ix2 p (0 : Fin 1))) = _
  rw [splat_apply, Cert.LibLiterals.ofBits_f32_one]

theorem rowOf_reshape (v : (⟨S64, .f32⟩ : BufTy).Contents (Elt Ideal)) :
    rowOf (shapeCast S1x64 v shapeCasts_S64_S1x64) = v := by
  funext j
  obtain ⟨q, rfl⟩ : ∃ q : Fin 64, j = ix1 q := ⟨j 0, eq_ix1 j⟩
  rw [rowOf_apply]
  exact shapeCast_a_1a_apply v shapeCasts_S64_S1x64 (0 : Fin 1) q

end Cert.KernelIdeal.Count

end
-- ==== Proof.KernelNetDefs.lean ====
/-
  The kernel program's value as one explicit function of its arguments.

  From the edge list: the source and target of every edge, the neighbour count of every node clipped below at one,
  and its reciprocal. A neighbour sum gathers the rows of a feature array at the edges' sources and adds each into
  the row of the edge's target. A layer is the multiplied form of the convolution on the neighbour sums, the
  features and the reciprocal counts, followed (in the first two layers) by batch normalisation and the rectifier;
  the parameter vectors enter as one-row matrices. The result is the classifier's tail applied to the third layer.
-/
import proofs.«164285_j20323785244835_2_alg».proof.Proof.Gen.KernelIdeal
import proofs.«164285_j20323785244835_2_alg».proof.Proof.LibSageLayer
import proofs.«164285_j20323785244835_2_alg».proof.Proof.KernelCount

noncomputable section

namespace Cert.KernelIdeal.Net

open Cert.KernelIdeal Cert.KernelIdeal.Facts₀ Cert.KernelIdeal.Count Cert.Dense Cert.Sage Idealize.ShloMosaic Idealize.ShloMosaic.ValueIdx

/-- The batch-norm epsilon, as the word both programs print. -/
abbrev epsW : EReal := Ideal.ofBits .f32 0x3727C5AC#32

abbrev A64 := (⟨S100000x64, .f32⟩ : BufTy).Contents (Elt Ideal)
abbrev B64 := (⟨S100000x64, .bf16⟩ : BufTy).Contents (Elt Ideal)
abbrev E2 := (⟨S2x1600000, .i32⟩ : BufTy).Contents (Elt Ideal)
abbrev W64 := (⟨S64x64, .f32⟩ : BufTy).Contents (Elt Ideal)
abbrev R64 := (⟨S64, .f32⟩ : BufTy).Contents (Elt Ideal)

/-- The source node of every edge: row 0 of the edge list. -/
def srcV (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The target node of every edge: row 1 of the edge list. -/
def dstV (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The targets as an index column. -/
def dcol (e : (⟨S2x1600000, .i32⟩ : BufTy).Contents (Elt Ideal)) : (⟨S1600000x1, .i32⟩ : BufTy).Contents (Elt Ideal) :=
  broadcastInDim S1600000x1 ![0] bcast_S1600000_S1600000x1_0 (dstV e)

/-- The sources as an index column, a negative index counted from the end. -/
def scol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcV e) (broadcastInDim S1600000 ![] bcast_S_S1600000 (constantI S_ 32 0#32)))
      (addi (srcV e) (broadcastInDim S1600000 ![] bcast_S_S1600000 (constantI S_ 32 100000#32))) (srcV e))

/-- The reciprocal of the clipped neighbour count, a column. -/
def cinv (e : E2) : (⟨S100000x1, .f32⟩ : BufTy).Contents (Elt Ideal) :=
  Host.divf (F := Ideal) (broadcastInDim S100000x1 ![] bcast_S_S100000x1 (constant (F := Ideal) S_ .f32 0x3F800000#32)) (cmax (dcol e))

/-- The neighbour sums of a feature array: its rows gathered at the edges' sources, each added into its edge's target row. -/
def agg (e : E2) (X : B64) : A64 :=
  Host.scatterAdd (F := Ideal) scatter_S100000x64_S1600000x1_S1600000x64_1_0_0_1
    (broadcastInDim S100000x64 ![] bcast_S_S100000x64 (constant (F := Ideal) S_ .f32 0x00000000#32)) (dcol e)
    (extf (F := Ideal) .f32 (Host.gather gather_S100000x64_S1600000x1_S1600000x64_1_0_n_n_0_1_164 X (scol e)) bitsLt_bf16_f32)

/-- A parameter vector as a one-row matrix. -/
def row (v : R64) : (⟨S1x64, .f32⟩ : BufTy).Contents (Elt Ideal) := shapeCast S1x64 v shapeCasts_S64_S1x64

/-- A layer with batch normalisation and the rectifier: X the features the neighbour sums gather, h the features
    the second product reads. -/
def layerBN (e : E2) (X : B64) (h : Mat 100000 64) (wl wr : W64) (bl g be mu v : R64) : Mat 100000 64 :=
  bnRelu epsW (rowOf (row mu)) (rowOf (row v)) (rowOf (row g)) (rowOf (row be))
    (convMul (agg e X) h (cinv e) wl wr (rowOf (row bl)))

/-- The last layer: the convolution alone. -/
def layerPlain (e : E2) (X : B64) (h : Mat 100000 64) (wl wr : W64) (bl : R64) : Mat 100000 64 :=
  convMul (agg e X) h (cinv e) wl wr (rowOf (row bl))

/-- The program's last stretch: the mean over the nodes, the two dense layers with the rectifier between, the logistic
    function — as one function of the last convolution's output and the classifier's parameters. -/
def tail (H : (⟨S100000x64, .f32⟩ : BufTy).Contents (Elt Ideal)) (x19 : (⟨S64x64, .f32⟩ : BufTy).Contents (Elt Ideal))
    (x20 : (⟨S64, .f32⟩ : BufTy).Contents (Elt Ideal)) (x21 : (⟨S1x64, .f32⟩ : BufTy).Contents (Elt Ideal))
    (x22 : (⟨S1, .f32⟩ : BufTy).Contents (Elt Ideal)) : (⟨S1x1, .f32⟩ : BufTy).Contents (Elt Ideal) :=
  Host.divf (F := Ideal) (broadcastInDim S1x1 ![] bcast_S_S1x1 (constant (F := Ideal) S_ .f32 0x3F800000#32))
    (addf (F := Ideal) (broadcastInDim S1x1 ![] bcast_S_S1x1 (constant (F := Ideal) S_ .f32 0x3F800000#32))
      (Host.exp (F := Ideal) (Host.negf (F := Ideal) (addf (F := Ideal)
        (Host.dotGeneral (F := Ideal) dot_S1x64_S64x1_S1x1_1_0_0_1_n_n none
          (maximumf (F := Ideal)
            (addf (F := Ideal)
              (Host.dotGeneral (F := Ideal) dot_S1x64_S64x64_S1x64_1_0_0_1_n_n none
                (Host.divf (F := Ideal)
                  (broadcastInDim S1x64 ![1] bcast_S64_S1x64_1
                    (Host.reduceAdd (F := Ideal) H (constant (F := Ideal) S_ .f32 0x00000000#32) reducesTo_S100000x64_S64_d0 h_S_))
                  (broadcastInDim S1x64 ![] bcast_S_S1x64 (constant (F := Ideal) S_ .f32 0x47C35000#32)))
                (transpose (α := Ideal .f32) S64x64 [1, 0] x19 transposes_S64x64_S64x64_1_0))
              (broadcastInDim S1x64 ![1] bcast_S64_S1x64_1 x20))
            (broadcastInDim S1x64 ![] bcast_S_S1x64 (constant (F := Ideal) S_ .f32 0x00000000#32)))
          (transpose (α := Ideal .f32) S64x1 [1, 0] x21 transposes_S1x64_S64x1_1_0))
        (broadcastInDim S1x1 ![1] bcast_S1_S1x1_1 x22)))))

/-- The three layers and the tail. -/
def knet (x0 : A64) (e : E2) (x2 : W64) (x3 : R64) (x4 x5 : W64) (x6 : R64) (x7 x8 : W64) (x9 : R64) (x10 : W64)
    (x11 x12 x13 x14 x15 x16 x17 x18 : R64) (x19 : W64) (x20 : R64) (x21 : (⟨S1x64, .f32⟩ : BufTy).Contents (Elt Ideal))
    (x22 : (⟨S1, .f32⟩ : BufTy).Contents (Elt Ideal)) : (⟨S1x1, .f32⟩ : BufTy).Contents (Elt Ideal) :=
  tail (layerPlain e
      (layerBN e (layerBN e (truncf (F := Ideal) .bf16 x0 bitsLt_bf16_f32) x0 x2 x4 x3 x11 x12 x13 x14)
        (layerBN e (truncf (F := Ideal) .bf16 x0 bitsLt_bf16_f32) x0 x2 x4 x3 x11 x12 x13 x14) x5 x7 x6 x15 x16 x17 x18)
      (layerBN e (layerBN e (truncf (F := Ideal) .bf16 x0 bitsLt_bf16_f32) x0 x2 x4 x3 x11 x12 x13 x14)
        (layerBN e (truncf (F := Ideal) .bf16 x0 bitsLt_bf16_f32) x0 x2 x4 x3 x11 x12 x13 x14) x5 x7 x6 x15 x16 x17 x18)
      x8 x10 x9) x19 x20 x21 x22

end Cert.KernelIdeal.Net

end
-- ==== Proof.KernelEntries.lean ====
/-
  What the kernel program's segments leave in the buffers the regions and the tail read.

  The first stretch of host operations computes, from the edge list, the sources and targets, the reciprocal counts
  and the first neighbour sums, and casts the first layer's parameter vectors to rows; no later segment writes an
  argument, the sources, the targets or the counts, so each holds the same contents at every later boundary. Each
  region's output is the layer of the arrays at its entry, so the boundary contents unfold, region by region, to the
  explicit three-layer function of the arguments, and the result buffer to the tail of the third layer.
-/
import proofs.«164285_j20323785244835_2_alg».proof.Proof.KernelRun
import proofs.«164285_j20323785244835_2_alg».proof.Proof.KernelArrays
import proofs.«164285_j20323785244835_2_alg».proof.Proof.KernelNetDefs

set_option maxRecDepth 16384

noncomputable section

namespace Cert.KernelIdeal.Entries

open Cert.KernelIdeal Cert.KernelIdeal.Gen Cert.KernelIdeal.Run Cert.KernelIdeal.Arrays Cert.KernelIdeal.Net
open Cert.KernelIdeal.Count Cert.Dense Cert.Sage
open Idealize.ShloMosaic Idealize.ShloMosaic.TcCoe Idealize.ShloMosaic.Tactic Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-! ## Buffers that keep their contents -/

theorem C1_main_arg0 : W1 m ρ c (Proc.devRef .tc main_arg0) = m ((c : Thread nD τ).loc main_arg0) := by
  refine (show W1 m ρ c _ = W0 m ρ c _ by keeps_host hostOps0).trans ?_
  rfl

theorem C1_main_arg2 : W1 m ρ c (Proc.devRef .tc main_arg2) = m ((c : Thread nD τ).loc main_arg2) := by
  refine (show W1 m ρ c _ = W0 m ρ c _ by keeps_host hostOps0).trans ?_
  rfl

theorem C1_main_arg4 : W1 m ρ c (Proc.devRef .tc main_arg4) = m ((c : Thread nD τ).loc main_arg4) := by
  refine (show W1 m ρ c _ = W0 m ρ c _ by keeps_host hostOps0).trans ?_
  rfl

theorem C1_main_arg6 : W1 m ρ c (Proc.devRef .tc main_arg6) = m ((c : Thread nD τ).loc main_arg6) := by
  refine (show W1 m ρ c _ = W0 m ρ c _ by keeps_host hostOps0).trans ?_
  rfl
theorem C2_main_arg6 : W2 m ρ c (Proc.devRef .tc main_arg6) = m ((c : Thread nD τ).loc main_arg6) :=
  (W2_keep m ρ c main_arg6 (by decide)).trans (C1_main_arg6 m ρ c)

theorem C1_main_arg15 : W1 m ρ c (Proc.devRef .tc main_arg15) = m ((c : Thread nD τ).loc main_arg15) := by
  refine (show W1 m ρ c _ = W0 m ρ c _ by keeps_host hostOps0).trans ?_
  rfl
theorem C2_main_arg15 : W2 m ρ c (Proc.devRef .tc main_arg15) = m ((c : Thread nD τ).loc main_arg15) :=
  (W2_keep m ρ c main_arg15 (by decide)).trans (C1_main_arg15 m ρ c)

theorem C1_main_arg16 : W1 m ρ c (Proc.devRef .tc main_arg16) = m ((c : Thread nD τ).loc main_arg16) := by
  refine (show W1 m ρ c _ = W0 m ρ c _ by keeps_host hostOps0).trans ?_
  rfl
theorem C2_main_arg16 : W2 m ρ c (Proc.devRef .tc main_arg16) = m ((c : Thread nD τ).loc main_arg16) :=
  (W2_keep m ρ c main_arg16 (by decide)).trans (C1_main_arg16 m ρ c)

theorem C1_main_arg17 : W1 m ρ c (Proc.devRef .tc main_arg17) = m ((c : Thread nD τ).loc main_arg17) := by
  refine (show W1 m ρ c _ = W0 m ρ c _ by keeps_host hostOps0).trans ?_
  rfl
theorem C2_main_arg17 : W2 m ρ c (Proc.devRef .tc main_arg17) = m ((c : Thread nD τ).loc main_arg17) :=
  (W2_keep m ρ c main_arg17 (by decide)).trans (C1_main_arg17 m ρ c)

theorem C1_main_arg18 : W1 m ρ c (Proc.devRef .tc main_arg18) = m ((c : Thread nD τ).loc main_arg18) := by
  refine (show W1 m ρ c _ = W0 m ρ c _ by keeps_host hostOps0).trans ?_
  rfl
theorem C2_main_arg18 : W2 m ρ c (Proc.devRef .tc main_arg18) = m ((c : Thread nD τ).loc main_arg18) :=
  (W2_keep m ρ c main_arg18 (by decide)).trans (C1_main_arg18 m ρ c)

theorem C1_main_arg5 : W1 m ρ c (Proc.devRef .tc main_arg5) = m ((c : Thread nD τ).loc main_arg5) := by
  refine (show W1 m ρ c _ = W0 m ρ c _ by keeps_host hostOps0).trans ?_
  rfl
theorem C2_main_arg5 : W2 m ρ c (Proc.devRef .tc main_arg5) = m ((c : Thread nD τ).loc main_arg5) :=
  (W2_keep m ρ c main_arg5 (by decide)).trans (C1_main_arg5 m ρ c)
theorem C3_main_arg5 : W3 m ρ c (Proc.devRef .tc main_arg5) = m ((c : Thread nD τ).loc main_arg5) :=
  (show W3 m ρ c (Proc.devRef .tc main_arg5) = W2 m ρ c (Proc.devRef .tc main_arg5) by keeps_host hostOps1).trans (C2_main_arg5 m ρ c)

theorem C1_main_arg7 : W1 m ρ c (Proc.devRef .tc main_arg7) = m ((c : Thread nD τ).loc main_arg7) := by
  refine (show W1 m ρ c _ = W0 m ρ c _ by keeps_host hostOps0).trans ?_
  rfl
theorem C2_main_arg7 : W2 m ρ c (Proc.devRef .tc main_arg7) = m ((c : Thread nD τ).loc main_arg7) :=
  (W2_keep m ρ c main_arg7 (by decide)).trans (C1_main_arg7 m ρ c)
theorem C3_main_arg7 : W3 m ρ c (Proc.devRef .tc main_arg7) = m ((c : Thread nD τ).loc main_arg7) :=
  (show W3 m ρ c (Proc.devRef .tc main_arg7) = W2 m ρ c (Proc.devRef .tc main_arg7) by keeps_host hostOps1).trans (C2_main_arg7 m ρ c)

theorem C1_main_arg9 : W1 m ρ c (Proc.devRef .tc main_arg9) = m ((c : Thread nD τ).loc main_arg9) := by
  refine (show W1 m ρ c _ = W0 m ρ c _ by keeps_host hostOps0).trans ?_
  rfl
theorem C2_main_arg9 : W2 m ρ c (Proc.devRef .tc main_arg9) = m ((c : Thread nD τ).loc main_arg9) :=
  (W2_keep m ρ c main_arg9 (by decide)).trans (C1_main_arg9 m ρ c)
theorem C3_main_arg9 : W3 m ρ c (Proc.devRef .tc main_arg9) = m ((c : Thread nD τ).loc main_arg9) :=
  (show W3 m ρ c (Proc.devRef .tc main_arg9) = W2 m ρ c (Proc.devRef .tc main_arg9) by keeps_host hostOps1).trans (C2_main_arg9 m ρ c)
theorem C4_main_arg9 : W4 m ρ c (Proc.devRef .tc main_arg9) = m ((c : Thread nD τ).loc main_arg9) :=
  (W4_keep m ρ c main_arg9 (by decide)).trans (C3_main_arg9 m ρ c)

theorem C1_main_arg8 : W1 m ρ c (Proc.devRef .tc main_arg8) = m ((c : Thread nD τ).loc main_arg8) := by
  refine (show W1 m ρ c _ = W0 m ρ c _ by keeps_host hostOps0).trans ?_
  rfl
theorem C2_main_arg8 : W2 m ρ c (Proc.devRef .tc main_arg8) = m ((c : Thread nD τ).loc main_arg8) :=
  (W2_keep m ρ c main_arg8 (by decide)).trans (C1_main_arg8 m ρ c)
theorem C3_main_arg8 : W3 m ρ c (Proc.devRef .tc main_arg8) = m ((c : Thread nD τ).loc main_arg8) :=
  (show W3 m ρ c (Proc.devRef .tc main_arg8) = W2 m ρ c (Proc.devRef .tc main_arg8) by keeps_host hostOps1).trans (C2_main_arg8 m ρ c)
theorem C4_main_arg8 : W4 m ρ c (Proc.devRef .tc main_arg8) = m ((c : Thread nD τ).loc main_arg8) :=
  (W4_keep m ρ c main_arg8 (by decide)).trans (C3_main_arg8 m ρ c)
theorem C5_main_arg8 : W5 m ρ c (Proc.devRef .tc main_arg8) = m ((c : Thread nD τ).loc main_arg8) :=
  (show W5 m ρ c (Proc.devRef .tc main_arg8) = W4 m ρ c (Proc.devRef .tc main_arg8) by keeps_host hostOps2).trans (C4_main_arg8 m ρ c)

theorem C1_main_arg10 : W1 m ρ c (Proc.devRef .tc main_arg10) = m ((c : Thread nD τ).loc main_arg10) := by
  refine (show W1 m ρ c _ = W0 m ρ c _ by keeps_host hostOps0).trans ?_
  rfl
theorem C2_main_arg10 : W2 m ρ c (Proc.devRef .tc main_arg10) = m ((c : Thread nD τ).loc main_arg10) :=
  (W2_keep m ρ c main_arg10 (by decide)).trans (C1_main_arg10 m ρ c)
theorem C3_main_arg10 : W3 m ρ c (Proc.devRef .tc main_arg10) = m ((c : Thread nD τ).loc main_arg10) :=
  (show W3 m ρ c (Proc.devRef .tc main_arg10) = W2 m ρ c (Proc.devRef .tc main_arg10) by keeps_host hostOps1).trans (C2_main_arg10 m ρ c)
theorem C4_main_arg10 : W4 m ρ c (Proc.devRef .tc main_arg10) = m ((c : Thread nD τ).loc main_arg10) :=
  (W4_keep m ρ c main_arg10 (by decide)).trans (C3_main_arg10 m ρ c)
theorem C5_main_arg10 : W5 m ρ c (Proc.devRef .tc main_arg10) = m ((c : Thread nD τ).loc main_arg10) :=
  (show W5 m ρ c (Proc.devRef .tc main_arg10) = W4 m ρ c (Proc.devRef .tc main_arg10) by keeps_host hostOps2).trans (C4_main_arg10 m ρ c)

theorem C1_main_arg19 : W1 m ρ c (Proc.devRef .tc main_arg19) = m ((c : Thread nD τ).loc main_arg19) := by
  refine (show W1 m ρ c _ = W0 m ρ c _ by keeps_host hostOps0).trans ?_
  rfl
theorem C2_main_arg19 : W2 m ρ c (Proc.devRef .tc main_arg19) = m ((c : Thread nD τ).loc main_arg19) :=
  (W2_keep m ρ c main_arg19 (by decide)).trans (C1_main_arg19 m ρ c)
theorem C3_main_arg19 : W3 m ρ c (Proc.devRef .tc main_arg19) = m ((c : Thread nD τ).loc main_arg19) :=
  (show W3 m ρ c (Proc.devRef .tc main_arg19) = W2 m ρ c (Proc.devRef .tc main_arg19) by keeps_host hostOps1).trans (C2_main_arg19 m ρ c)
theorem C4_main_arg19 : W4 m ρ c (Proc.devRef .tc main_arg19) = m ((c : Thread nD τ).loc main_arg19) :=
  (W4_keep m ρ c main_arg19 (by decide)).trans (C3_main_arg19 m ρ c)
theorem C5_main_arg19 : W5 m ρ c (Proc.devRef .tc main_arg19) = m ((c : Thread nD τ).loc main_arg19) :=
  (show W5 m ρ c (Proc.devRef .tc main_arg19) = W4 m ρ c (Proc.devRef .tc main_arg19) by keeps_host hostOps2).trans (C4_main_arg19 m ρ c)
theorem C6_main_arg19 : W6 m ρ c (Proc.devRef .tc main_arg19) = m ((c : Thread nD τ).loc main_arg19) :=
  (W6_keep m ρ c main_arg19 (by decide)).trans (C5_main_arg19 m ρ c)

theorem C1_main_arg20 : W1 m ρ c (Proc.devRef .tc main_arg20) = m ((c : Thread nD τ).loc main_arg20) := by
  refine (show W1 m ρ c _ = W0 m ρ c _ by keeps_host hostOps0).trans ?_
  rfl
theorem C2_main_arg20 : W2 m ρ c (Proc.devRef .tc main_arg20) = m ((c : Thread nD τ).loc main_arg20) :=
  (W2_keep m ρ c main_arg20 (by decide)).trans (C1_main_arg20 m ρ c)
theorem C3_main_arg20 : W3 m ρ c (Proc.devRef .tc main_arg20) = m ((c : Thread nD τ).loc main_arg20) :=
  (show W3 m ρ c (Proc.devRef .tc main_arg20) = W2 m ρ c (Proc.devRef .tc main_arg20) by keeps_host hostOps1).trans (C2_main_arg20 m ρ c)
theorem C4_main_arg20 : W4 m ρ c (Proc.devRef .tc main_arg20) = m ((c : Thread nD τ).loc main_arg20) :=
  (W4_keep m ρ c main_arg20 (by decide)).trans (C3_main_arg20 m ρ c)
theorem C5_main_arg20 : W5 m ρ c (Proc.devRef .tc main_arg20) = m ((c : Thread nD τ).loc main_arg20) :=
  (show W5 m ρ c (Proc.devRef .tc main_arg20) = W4 m ρ c (Proc.devRef .tc main_arg20) by keeps_host hostOps2).trans (C4_main_arg20 m ρ c)
theorem C6_main_arg20 : W6 m ρ c (Proc.devRef .tc main_arg20) = m ((c : Thread nD τ).loc main_arg20) :=
  (W6_keep m ρ c main_arg20 (by decide)).trans (C5_main_arg20 m ρ c)

theorem C1_main_arg21 : W1 m ρ c (Proc.devRef .tc main_arg21) = m ((c : Thread nD τ).loc main_arg21) := by
  refine (show W1 m ρ c _ = W0 m ρ c _ by keeps_host hostOps0).trans ?_
  rfl
theorem C2_main_arg21 : W2 m ρ c (Proc.devRef .tc main_arg21) = m ((c : Thread nD τ).loc main_arg21) :=
  (W2_keep m ρ c main_arg21 (by decide)).trans (C1_main_arg21 m ρ c)
theorem C3_main_arg21 : W3 m ρ c (Proc.devRef .tc main_arg21) = m ((c : Thread nD τ).loc main_arg21) :=
  (show W3 m ρ c (Proc.devRef .tc main_arg21) = W2 m ρ c (Proc.devRef .tc main_arg21) by keeps_host hostOps1).trans (C2_main_arg21 m ρ c)
theorem C4_main_arg21 : W4 m ρ c (Proc.devRef .tc main_arg21) = m ((c : Thread nD τ).loc main_arg21) :=
  (W4_keep m ρ c main_arg21 (by decide)).trans (C3_main_arg21 m ρ c)
theorem C5_main_arg21 : W5 m ρ c (Proc.devRef .tc main_arg21) = m ((c : Thread nD τ).loc main_arg21) :=
  (show W5 m ρ c (Proc.devRef .tc main_arg21) = W4 m ρ c (Proc.devRef .tc main_arg21) by keeps_host hostOps2).trans (C4_main_arg21 m ρ c)
theorem C6_main_arg21 : W6 m ρ c (Proc.devRef .tc main_arg21) = m ((c : Thread nD τ).loc main_arg21) :=
  (W6_keep m ρ c main_arg21 (by decide)).trans (C5_main_arg21 m ρ c)

theorem C1_main_arg22 : W1 m ρ c (Proc.devRef .tc main_arg22) = m ((c : Thread nD τ).loc main_arg22) := by
  refine (show W1 m ρ c _ = W0 m ρ c _ by keeps_host hostOps0).trans ?_
  rfl
theorem C2_main_arg22 : W2 m ρ c (Proc.devRef .tc main_arg22) = m ((c : Thread nD τ).loc main_arg22) :=
  (W2_keep m ρ c main_arg22 (by decide)).trans (C1_main_arg22 m ρ c)
theorem C3_main_arg22 : W3 m ρ c (Proc.devRef .tc main_arg22) = m ((c : Thread nD τ).loc main_arg22) :=
  (show W3 m ρ c (Proc.devRef .tc main_arg22) = W2 m ρ c (Proc.devRef .tc main_arg22) by keeps_host hostOps1).trans (C2_main_arg22 m ρ c)
theorem C4_main_arg22 : W4 m ρ c (Proc.devRef .tc main_arg22) = m ((c : Thread nD τ).loc main_arg22) :=
  (W4_keep m ρ c main_arg22 (by decide)).trans (C3_main_arg22 m ρ c)
theorem C5_main_arg22 : W5 m ρ c (Proc.devRef .tc main_arg22) = m ((c : Thread nD τ).loc main_arg22) :=
  (show W5 m ρ c (Proc.devRef .tc main_arg22) = W4 m ρ c (Proc.devRef .tc main_arg22) by keeps_host hostOps2).trans (C4_main_arg22 m ρ c)
theorem C6_main_arg22 : W6 m ρ c (Proc.devRef .tc main_arg22) = m ((c : Thread nD τ).loc main_arg22) :=
  (W6_keep m ρ c main_arg22 (by decide)).trans (C5_main_arg22 m ρ c)

/-! ## The edge sources, the edge targets and the reciprocal counts -/
set_option maxHeartbeats 1000000 in
theorem C1_main_v1 : W1 m ρ c (Proc.devRef .tc main_v1) = srcV (m ((c : Thread nD τ).loc main_arg1)) := by
  show StableHlo.after hostOps0 (W0 m ρ c) _ = _
  after_results_simp
  rfl
theorem C2_main_v1 : W2 m ρ c (Proc.devRef .tc main_v1) = srcV (m ((c : Thread nD τ).loc main_arg1)) :=
  (W2_keep m ρ c main_v1 (by decide)).trans (C1_main_v1 m ρ c)
theorem C3_main_v1 : W3 m ρ c (Proc.devRef .tc main_v1) = srcV (m ((c : Thread nD τ).loc main_arg1)) :=
  (show W3 m ρ c (Proc.devRef .tc main_v1) = W2 m ρ c (Proc.devRef .tc main_v1) by keeps_host hostOps1).trans (C2_main_v1 m ρ c)
theorem C4_main_v1 : W4 m ρ c (Proc.devRef .tc main_v1) = srcV (m ((c : Thread nD τ).loc main_arg1)) :=
  (W4_keep m ρ c main_v1 (by decide)).trans (C3_main_v1 m ρ c)
set_option maxHeartbeats 1000000 in
theorem C1_main_v3 : W1 m ρ c (Proc.devRef .tc main_v3) = dstV (m ((c : Thread nD τ).loc main_arg1)) := by
  show StableHlo.after hostOps0 (W0 m ρ c) _ = _
  after_results_simp
  rfl
theorem C2_main_v3 : W2 m ρ c (Proc.devRef .tc main_v3) = dstV (m ((c : Thread nD τ).loc main_arg1)) :=
  (W2_keep m ρ c main_v3 (by decide)).trans (C1_main_v3 m ρ c)
theorem C3_main_v3 : W3 m ρ c (Proc.devRef .tc main_v3) = dstV (m ((c : Thread nD τ).loc main_arg1)) :=
  (show W3 m ρ c (Proc.devRef .tc main_v3) = W2 m ρ c (Proc.devRef .tc main_v3) by keeps_host hostOps1).trans (C2_main_v3 m ρ c)
theorem C4_main_v3 : W4 m ρ c (Proc.devRef .tc main_v3) = dstV (m ((c : Thread nD τ).loc main_arg1)) :=
  (W4_keep m ρ c main_v3 (by decide)).trans (C3_main_v3 m ρ c)
set_option maxHeartbeats 1000000 in
theorem C1_main_v11 : W1 m ρ c (Proc.devRef .tc main_v11) = cinv (m ((c : Thread nD τ).loc main_arg1)) := by
  show StableHlo.after hostOps0 (W0 m ρ c) _ = _
  after_results_simp
  rfl
theorem C2_main_v11 : W2 m ρ c (Proc.devRef .tc main_v11) = cinv (m ((c : Thread nD τ).loc main_arg1)) :=
  (W2_keep m ρ c main_v11 (by decide)).trans (C1_main_v11 m ρ c)
theorem C3_main_v11 : W3 m ρ c (Proc.devRef .tc main_v11) = cinv (m ((c : Thread nD τ).loc main_arg1)) :=
  (show W3 m ρ c (Proc.devRef .tc main_v11) = W2 m ρ c (Proc.devRef .tc main_v11) by keeps_host hostOps1).trans (C2_main_v11 m ρ c)
theorem C4_main_v11 : W4 m ρ c (Proc.devRef .tc main_v11) = cinv (m ((c : Thread nD τ).loc main_arg1)) :=
  (W4_keep m ρ c main_v11 (by decide)).trans (C3_main_v11 m ρ c)
theorem C5_main_v11 : W5 m ρ c (Proc.devRef .tc main_v11) = cinv (m ((c : Thread nD τ).loc main_arg1)) :=
  (show W5 m ρ c (Proc.devRef .tc main_v11) = W4 m ρ c (Proc.devRef .tc main_v11) by keeps_host hostOps2).trans (C4_main_v11 m ρ c)

/-! ## Region 0: its entry is what the first stretch leaves -/

set_option maxHeartbeats 1000000 in
theorem C1_main_v23 : W1 m ρ c (Proc.devRef .tc main_v23) = agg (m ((c : Thread nD τ).loc main_arg1)) (truncf (F := Ideal) .bf16 (m ((c : Thread nD τ).loc main_arg0)) bitsLt_bf16_f32) := by
  show StableHlo.after hostOps0 (W0 m ρ c) _ = _
  after_results_simp
  rfl

theorem C1_main_v24 : W1 m ρ c (Proc.devRef .tc main_v24) = row (m ((c : Thread nD τ).loc main_arg3)) := by
  show StableHlo.after hostOps0 (W0 m ρ c) _ = _
  after_results_simp
  rfl

theorem C1_main_v25 : W1 m ρ c (Proc.devRef .tc main_v25) = row (m ((c : Thread nD τ).loc main_arg11)) := by
  show StableHlo.after hostOps0 (W0 m ρ c) _ = _
  after_results_simp
  rfl

theorem C1_main_v26 : W1 m ρ c (Proc.devRef .tc main_v26) = row (m ((c : Thread nD τ).loc main_arg12)) := by
  show StableHlo.after hostOps0 (W0 m ρ c) _ = _
  after_results_simp
  rfl

theorem C1_main_v27 : W1 m ρ c (Proc.devRef .tc main_v27) = row (m ((c : Thread nD τ).loc main_arg13)) := by
  show StableHlo.after hostOps0 (W0 m ρ c) _ = _
  after_results_simp
  rfl

theorem C1_main_v28 : W1 m ρ c (Proc.devRef .tc main_v28) = row (m ((c : Thread nD τ).loc main_arg14)) := by
  show StableHlo.after hostOps0 (W0 m ρ c) _ = _
  after_results_simp
  rfl

/-- Region 0's layer at its entry contents is the first layer of the arguments. -/
theorem entry0 : layer0 (V1 m ρ) c
    = layerBN (m ((c : Thread nD τ).loc main_arg1)) (truncf (F := Ideal) .bf16 (m ((c : Thread nD τ).loc main_arg0)) bitsLt_bf16_f32) (m ((c : Thread nD τ).loc main_arg0)) (m ((c : Thread nD τ).loc main_arg2)) (m ((c : Thread nD τ).loc main_arg4)) (m ((c : Thread nD τ).loc main_arg3))
        (m ((c : Thread nD τ).loc main_arg11)) (m ((c : Thread nD τ).loc main_arg12)) (m ((c : Thread nD τ).loc main_arg13)) (m ((c : Thread nD τ).loc main_arg14)) := by
  unfold layer0 layerBN
  dsimp only [V1]
  rw [C1_main_v23 m ρ c, C1_main_arg0 m ρ c, C1_main_v11 m ρ c, C1_main_arg2 m ρ c, C1_main_arg4 m ρ c,
    C1_main_v24 m ρ c, C1_main_v25 m ρ c, C1_main_v26 m ρ c, C1_main_v27 m ρ c, C1_main_v28 m ρ c]

/-! ## Region 1 -/

/-- Region 0's output array at its exit. -/
theorem W2_v29 : W2 m ρ c (Proc.devRef .tc main_v29) = layer0 (V1 m ρ) c := (W2_arr m ρ c 10).trans (arr0 (V1 m ρ) c)

theorem C3_main_v29 : W3 m ρ c (Proc.devRef .tc main_v29) = layer0 (V1 m ρ) c :=
  (show W3 m ρ c (Proc.devRef .tc main_v29) = W2 m ρ c (Proc.devRef .tc main_v29) by keeps_host hostOps1).trans (W2_v29 m ρ c)

set_option maxHeartbeats 1000000 in
theorem C3_main_v40 : W3 m ρ c (Proc.devRef .tc main_v40) = agg (m ((c : Thread nD τ).loc main_arg1)) (layer0 (V1 m ρ) c) := by
  show StableHlo.after hostOps1 (W2 m ρ c) _ = _
  after_results_simp
  rw [C2_main_v1 m ρ c, C2_main_v3 m ρ c, W2_v29 m ρ c]
  rfl

theorem C3_main_v41 : W3 m ρ c (Proc.devRef .tc main_v41) = row (m ((c : Thread nD τ).loc main_arg6)) := by
  show StableHlo.after hostOps1 (W2 m ρ c) _ = _
  after_results_simp
  rw [C2_main_arg6 m ρ c]
  rfl

theorem C3_main_v42 : W3 m ρ c (Proc.devRef .tc main_v42) = row (m ((c : Thread nD τ).loc main_arg15)) := by
  show StableHlo.after hostOps1 (W2 m ρ c) _ = _
  after_results_simp
  rw [C2_main_arg15 m ρ c]
  rfl

theorem C3_main_v43 : W3 m ρ c (Proc.devRef .tc main_v43) = row (m ((c : Thread nD τ).loc main_arg16)) := by
  show StableHlo.after hostOps1 (W2 m ρ c) _ = _
  after_results_simp
  rw [C2_main_arg16 m ρ c]
  rfl

theorem C3_main_v44 : W3 m ρ c (Proc.devRef .tc main_v44) = row (m ((c : Thread nD τ).loc main_arg17)) := by
  show StableHlo.after hostOps1 (W2 m ρ c) _ = _
  after_results_simp
  rw [C2_main_arg17 m ρ c]
  rfl

theorem C3_main_v45 : W3 m ρ c (Proc.devRef .tc main_v45) = row (m ((c : Thread nD τ).loc main_arg18)) := by
  show StableHlo.after hostOps1 (W2 m ρ c) _ = _
  after_results_simp
  rw [C2_main_arg18 m ρ c]
  rfl

/-- Region 1's layer at its entry contents is the second layer, of region 0's output. -/
theorem entry1 : layer1 (V3 m ρ) c
    = layerBN (m ((c : Thread nD τ).loc main_arg1)) (layer0 (V1 m ρ) c) (layer0 (V1 m ρ) c) (m ((c : Thread nD τ).loc main_arg5)) (m ((c : Thread nD τ).loc main_arg7)) (m ((c : Thread nD τ).loc main_arg6))
        (m ((c : Thread nD τ).loc main_arg15)) (m ((c : Thread nD τ).loc main_arg16)) (m ((c : Thread nD τ).loc main_arg17)) (m ((c : Thread nD τ).loc main_arg18)) := by
  unfold layer1 layerBN
  dsimp only [V3]
  rw [C3_main_v40 m ρ c, C3_main_v29 m ρ c, C3_main_v11 m ρ c, C3_main_arg5 m ρ c, C3_main_arg7 m ρ c,
    C3_main_v41 m ρ c, C3_main_v42 m ρ c, C3_main_v43 m ρ c, C3_main_v44 m ρ c, C3_main_v45 m ρ c]

/-! ## Region 2 -/

/-- Region 1's output array at its exit. -/
theorem W4_v46 : W4 m ρ c (Proc.devRef .tc main_v46) = layer1 (V3 m ρ) c := (W4_arr m ρ c 10).trans (arr1 (V3 m ρ) c)

theorem C5_main_v46 : W5 m ρ c (Proc.devRef .tc main_v46) = layer1 (V3 m ρ) c :=
  (show W5 m ρ c (Proc.devRef .tc main_v46) = W4 m ρ c (Proc.devRef .tc main_v46) by keeps_host hostOps2).trans (W4_v46 m ρ c)

set_option maxHeartbeats 1000000 in
theorem C5_main_v57 : W5 m ρ c (Proc.devRef .tc main_v57) = agg (m ((c : Thread nD τ).loc main_arg1)) (layer1 (V3 m ρ) c) := by
  show StableHlo.after hostOps2 (W4 m ρ c) _ = _
  after_results_simp
  rw [C4_main_v1 m ρ c, C4_main_v3 m ρ c, W4_v46 m ρ c]
  rfl

theorem C5_main_v58 : W5 m ρ c (Proc.devRef .tc main_v58) = row (m ((c : Thread nD τ).loc main_arg9)) := by
  show StableHlo.after hostOps2 (W4 m ρ c) _ = _
  after_results_simp
  rw [C4_main_arg9 m ρ c]
  rfl

/-- Region 2's layer at its entry contents is the third layer, of region 1's output. -/
theorem entry2 : layer2 (V5 m ρ) c
    = layerPlain (m ((c : Thread nD τ).loc main_arg1)) (layer1 (V3 m ρ) c) (layer1 (V3 m ρ) c) (m ((c : Thread nD τ).loc main_arg8)) (m ((c : Thread nD τ).loc main_arg10)) (m ((c : Thread nD τ).loc main_arg9)) := by
  unfold layer2 layerPlain
  dsimp only [V5]
  rw [C5_main_v57 m ρ c, C5_main_v46 m ρ c, C5_main_v11 m ρ c, C5_main_arg8 m ρ c, C5_main_arg10 m ρ c, C5_main_v58 m ρ c]

/-! ## The tail and the result -/

/-- Region 2's output array at its exit. -/
theorem W6_v59 : W6 m ρ c (Proc.devRef .tc main_v59) = layer2 (V5 m ρ) c := (W6_arr m ρ c 6).trans (arr2 (V5 m ρ) c)

set_option maxHeartbeats 2000000 in
/-- The result buffer after the last stretch: the tail of region 2's output. -/
theorem result_tail : W9 m ρ c (Proc.devRef .tc main_v78)
    = tail (layer2 (V5 m ρ) c) (m ((c : Thread nD τ).loc main_arg19)) (m ((c : Thread nD τ).loc main_arg20)) (m ((c : Thread nD τ).loc main_arg21)) (m ((c : Thread nD τ).loc main_arg22)) := by
  dsimp only [W9, W8, W7]
  after_results_simp
  rw [C6_main_arg19 m ρ c, C6_main_arg20 m ρ c, C6_main_arg21 m ρ c, C6_main_arg22 m ρ c, W6_v59 m ρ c]
  rfl

/-- THE KERNEL PROGRAM'S RESULT as the explicit function of its arguments. -/
theorem result_eq : W9 m ρ c (Proc.devRef .tc main_v78)
    = knet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) (m ((c : Thread nD τ).loc main_arg15))
        (m ((c : Thread nD τ).loc main_arg16)) (m ((c : Thread nD τ).loc main_arg17)) (m ((c : Thread nD τ).loc main_arg18)) (m ((c : Thread nD τ).loc main_arg19)) (m ((c : Thread nD τ).loc main_arg20))
        (m ((c : Thread nD τ).loc main_arg21)) (m ((c : Thread nD τ).loc main_arg22)) := by
  rw [result_tail, entry2, entry1, entry0]
  rfl

end Cert.KernelIdeal.Entries

end
-- ==== Proof.RefLayers.lean ====
/-
  The reference's three convolution layers as layer functions of their inputs.

  Each layer of the reference divides the neighbour sums by the clipped counts broadcast along the rows, multiplies
  by the transposed left weight, adds the bias broadcast over the rows, and adds the layer's input times the
  transposed right weight; the first two layers then subtract the running mean, multiply by the reciprocal root of
  the running variance plus epsilon and by the scale, add the shift, and take the maximum with zero. Read at an
  entry (p, q), each operation reads its operands at one entry (a product: at the entries (p, k) and (k, q) of the
  contracted position k), so the layer's entry is the entry of the layer function of LibSageLayer: the sum over k of
  A(p,k) / c(p) * wl(q,k), plus bl(q), plus the sum over k of h(p,k) * wr(q,k), then normalised and rectified.
  The neighbour sums and the counts are not opened: they enter only as the arrays A and c.
-/
import proofs.«164285_j20323785244835_2_alg».proof.Proof.Gen.ReferenceIdeal.Read
import proofs.«164285_j20323785244835_2_alg».proof.Proof.LibSageLayer

noncomputable section

namespace Cert.ReferenceIdeal.Layers

open Cert.ReferenceIdeal Cert.ReferenceIdeal.Read Cert.Dense Cert.Sage Idealize.ShloMosaic Idealize.ShloMosaic.ValueIdx

/-- The batch-norm epsilon, as the word both programs print. -/
abbrev epsW : EReal := Ideal.ofBits .f32 0x3727C5AC#32

abbrev A64 := (⟨S100000x64, .f32⟩ : BufTy).Contents (Elt Ideal)
abbrev E2 := (⟨S2x1600000, .i32⟩ : BufTy).Contents (Elt Ideal)
abbrev W64 := (⟨S64x64, .f32⟩ : BufTy).Contents (Elt Ideal)
abbrev R64 := (⟨S64, .f32⟩ : BufTy).Contents (Elt Ideal)

/-! ## The index maps of the layout operations, at an entry (p, q) and a contracted position k

  A general dot product with the second axis of the left operand contracted against the first of the right reads
  the left operand at (p, k) and the right at (k, q); the transposed weight read at (k, q) is the weight at (q, k);
  the count column broadcast along the rows is read at (p, 0); a row broadcast first to one row and then over all
  rows is read at q. -/

private theorem lidx_v23 (p : Fin 100000) (q k : Fin 64) : lidx_main_v23 (ix2 p q) k = ix2 p k := funext fun a => Fin.ext (by match a with | ⟨0, _⟩ => rfl | ⟨1, _⟩ => rfl)
private theorem ridx_v23 (p : Fin 100000) (q k : Fin 64) : ridx_main_v23 (ix2 p q) k = ix2 k q := funext fun a => Fin.ext (by match a with | ⟨0, _⟩ => rfl | ⟨1, _⟩ => rfl)
private theorem lidx_v28 (p : Fin 100000) (q k : Fin 64) : lidx_main_v28 (ix2 p q) k = ix2 p k := funext fun a => Fin.ext (by match a with | ⟨0, _⟩ => rfl | ⟨1, _⟩ => rfl)
private theorem ridx_v28 (p : Fin 100000) (q k : Fin 64) : ridx_main_v28 (ix2 p q) k = ix2 k q := funext fun a => Fin.ext (by match a with | ⟨0, _⟩ => rfl | ⟨1, _⟩ => rfl)
private theorem idx_v20 (p : Fin 100000) (k : Fin 64) : idx_main_v20 (ix2 p k) = ix2 p (0 : Fin 1) := funext fun a => Fin.ext (by match a with | ⟨0, _⟩ => rfl | ⟨1, _⟩ => rfl)
private theorem idx_v22 (q k : Fin 64) : idx_main_v22 (ix2 k q) = ix2 q k := funext fun a => Fin.ext (by match a with | ⟨0, _⟩ => rfl | ⟨1, _⟩ => rfl)
private theorem idx_v27 (q k : Fin 64) : idx_main_v27 (ix2 k q) = ix2 q k := funext fun a => Fin.ext (by match a with | ⟨0, _⟩ => rfl | ⟨1, _⟩ => rfl)
private theorem idx_v24_v25 (p : Fin 100000) (q : Fin 64) : idx_main_v24 (idx_main_v25 (ix2 p q)) = ix1 q := funext fun a => Fin.ext (by match a with | ⟨0, _⟩ => rfl)
private theorem idx_v30_v31 (p : Fin 100000) (q : Fin 64) : idx_main_v30 (idx_main_v31 (ix2 p q)) = ix1 q := funext fun a => Fin.ext (by match a with | ⟨0, _⟩ => rfl)
private theorem idx_v36_v37 (p : Fin 100000) (q : Fin 64) : idx_main_v36 (idx_main_v37 (ix2 p q)) = ix1 q := funext fun a => Fin.ext (by match a with | ⟨0, _⟩ => rfl)
private theorem idx_v39_v40 (p : Fin 100000) (q : Fin 64) : idx_main_v39 (idx_main_v40 (ix2 p q)) = ix1 q := funext fun a => Fin.ext (by match a with | ⟨0, _⟩ => rfl)
private theorem idx_v42_v43 (p : Fin 100000) (q : Fin 64) : idx_main_v42 (idx_main_v43 (ix2 p q)) = ix1 q := funext fun a => Fin.ext (by match a with | ⟨0, _⟩ => rfl)

private theorem lidx_v65 (p : Fin 100000) (q k : Fin 64) : lidx_main_v65 (ix2 p q) k = ix2 p k := funext fun a => Fin.ext (by match a with | ⟨0, _⟩ => rfl | ⟨1, _⟩ => rfl)
private theorem ridx_v65 (p : Fin 100000) (q k : Fin 64) : ridx_main_v65 (ix2 p q) k = ix2 k q := funext fun a => Fin.ext (by match a with | ⟨0, _⟩ => rfl | ⟨1, _⟩ => rfl)
private theorem lidx_v70 (p : Fin 100000) (q k : Fin 64) : lidx_main_v70 (ix2 p q) k = ix2 p k := funext fun a => Fin.ext (by match a with | ⟨0, _⟩ => rfl | ⟨1, _⟩ => rfl)
private theorem ridx_v70 (p : Fin 100000) (q k : Fin 64) : ridx_main_v70 (ix2 p q) k = ix2 k q := funext fun a => Fin.ext (by match a with | ⟨0, _⟩ => rfl | ⟨1, _⟩ => rfl)
private theorem idx_v62 (p : Fin 100000) (k : Fin 64) : idx_main_v62 (ix2 p k) = ix2 p (0 : Fin 1) := funext fun a => Fin.ext (by match a with | ⟨0, _⟩ => rfl | ⟨1, _⟩ => rfl)
private theorem idx_v64 (q k : Fin 64) : idx_main_v64 (ix2 k q) = ix2 q k := funext fun a => Fin.ext (by match a with | ⟨0, _⟩ => rfl | ⟨1, _⟩ => rfl)
private theorem idx_v69 (q k : Fin 64) : idx_main_v69 (ix2 k q) = ix2 q k := funext fun a => Fin.ext (by match a with | ⟨0, _⟩ => rfl | ⟨1, _⟩ => rfl)
private theorem idx_v66_v67 (p : Fin 100000) (q : Fin 64) : idx_main_v66 (idx_main_v67 (ix2 p q)) = ix1 q := funext fun a => Fin.ext (by match a with | ⟨0, _⟩ => rfl)
private theorem idx_v72_v73 (p : Fin 100000) (q : Fin 64) : idx_main_v72 (idx_main_v73 (ix2 p q)) = ix1 q := funext fun a => Fin.ext (by match a with | ⟨0, _⟩ => rfl)
private theorem idx_v78_v79 (p : Fin 100000) (q : Fin 64) : idx_main_v78 (idx_main_v79 (ix2 p q)) = ix1 q := funext fun a => Fin.ext (by match a with | ⟨0, _⟩ => rfl)
private theorem idx_v81_v82 (p : Fin 100000) (q : Fin 64) : idx_main_v81 (idx_main_v82 (ix2 p q)) = ix1 q := funext fun a => Fin.ext (by match a with | ⟨0, _⟩ => rfl)
private theorem idx_v84_v85 (p : Fin 100000) (q : Fin 64) : idx_main_v84 (idx_main_v85 (ix2 p q)) = ix1 q := funext fun a => Fin.ext (by match a with | ⟨0, _⟩ => rfl)

private theorem lidx_v107 (p : Fin 100000) (q k : Fin 64) : lidx_main_v107 (ix2 p q) k = ix2 p k := funext fun a => Fin.ext (by match a with | ⟨0, _⟩ => rfl | ⟨1, _⟩ => rfl)
private theorem ridx_v107 (p : Fin 100000) (q k : Fin 64) : ridx_main_v107 (ix2 p q) k = ix2 k q := funext fun a => Fin.ext (by match a with | ⟨0, _⟩ => rfl | ⟨1, _⟩ => rfl)
private theorem lidx_v112 (p : Fin 100000) (q k : Fin 64) : lidx_main_v112 (ix2 p q) k = ix2 p k := funext fun a => Fin.ext (by match a with | ⟨0, _⟩ => rfl | ⟨1, _⟩ => rfl)
private theorem ridx_v112 (p : Fin 100000) (q k : Fin 64) : ridx_main_v112 (ix2 p q) k = ix2 k q := funext fun a => Fin.ext (by match a with | ⟨0, _⟩ => rfl | ⟨1, _⟩ => rfl)
private theorem idx_v104 (p : Fin 100000) (k : Fin 64) : idx_main_v104 (ix2 p k) = ix2 p (0 : Fin 1) := funext fun a => Fin.ext (by match a with | ⟨0, _⟩ => rfl | ⟨1, _⟩ => rfl)
private theorem idx_v106 (q k : Fin 64) : idx_main_v106 (ix2 k q) = ix2 q k := funext fun a => Fin.ext (by match a with | ⟨0, _⟩ => rfl | ⟨1, _⟩ => rfl)
private theorem idx_v111 (q k : Fin 64) : idx_main_v111 (ix2 k q) = ix2 q k := funext fun a => Fin.ext (by match a with | ⟨0, _⟩ => rfl | ⟨1, _⟩ => rfl)
private theorem idx_v108_v109 (p : Fin 100000) (q : Fin 64) : idx_main_v108 (idx_main_v109 (ix2 p q)) = ix1 q := funext fun a => Fin.ext (by match a with | ⟨0, _⟩ => rfl)

/-! ## The three layers -/

/-- The first layer: the neighbour sums of the input features divided by the clipped counts, times the transposed left
    weight, plus the bias, plus the input features times the transposed right weight; then the first batch
    normalisation and the rectifier. -/
theorem layer1 (x0 : A64) (x1 : E2) (x2 : W64) (x3 : R64) (x4 : W64) (x11 x12 x13 x14 : R64) :
    val_main_v45 (F := Ideal) x0 x1 x2 x3 x4 x11 x12 x13 x14
      = bnRelu epsW x13 x14 x11 x12 (convDiv (val_main_v13 (F := Ideal) x0 x1) x0 (val_main_v19 (F := Ideal) x1) x2 x4 x3) := by
  funext i
  obtain ⟨p, q, rfl⟩ : ∃ (p : Fin 100000) (q : Fin 64), i = ix2 p q := ⟨i 0, i 1, eq_ix2 i⟩
  rw [bnRelu_apply, convDiv_apply]
  -- the entry (p, q) of every elementwise operation, product and broadcast, down to the arguments, the neighbour
  -- sums and the counts
  rw [val_main_v45_apply, val_main_v44_apply, val_main_v41_apply, val_main_v38_apply, val_main_v32_apply,
    val_main_v29_apply, val_main_v26_apply, val_main_v23_apply, val_main_v28_apply, val_main_v25_apply,
    val_main_v24_apply, val_main_v31_apply, val_main_v30_apply, val_main_v37_apply, val_main_v36_apply,
    val_main_v35_apply, val_main_v34_apply, val_main_v33_apply, val_main_cst_4_apply, val_main_v40_apply,
    val_main_v39_apply, val_main_v43_apply, val_main_v42_apply, val_main_call0_v0_apply,
    val_main_call0_cst_apply]
  rw [idx_v24_v25, idx_v30_v31, idx_v36_v37, idx_v39_v40, idx_v42_v43]
  -- the product of the divided neighbour sums with the transposed left weight
  have s1 : (∑ k : Fin 64, val_main_v21 (F := Ideal) x0 x1 (lidx_main_v23 (ix2 p q) k)
        * val_main_v22 (F := Ideal) x2 (ridx_main_v23 (ix2 p q) k))
      = ∑ k : Fin 64, Ideal.div (val_main_v13 (F := Ideal) x0 x1 (ix2 p k))
          (val_main_v19 (F := Ideal) x1 (ix2 p (0 : Fin 1))) * x2 (ix2 q k) :=
    Finset.sum_congr rfl fun k _ => by
      rw [lidx_v23, ridx_v23, val_main_v21_apply, val_main_v20_apply, val_main_v22_apply, idx_v20, idx_v22,
        Ideal.hostDivf_def]
  -- the product of the layer's input with the transposed right weight
  have s2 : (∑ k : Fin 64, x0 (lidx_main_v28 (ix2 p q) k)
        * val_main_v27 (F := Ideal) x4 (ridx_main_v28 (ix2 p q) k))
      = ∑ k : Fin 64, x0 (ix2 p k) * x4 (ix2 q k) :=
    Finset.sum_congr rfl fun k _ => by rw [lidx_v28, ridx_v28, val_main_v27_apply, idx_v27]
  rw [s1, s2]
  -- the operations on the extended reals; the zero word is zero
  rw [Ideal.maximumf_def, Ideal.addf_def, Ideal.addf_def, Ideal.addf_def, Ideal.addf_def, Ideal.mulf_def, Ideal.mulf_def,
    Ideal.subf_def, Ideal.hostUnary_rsqrt_def, Ideal.ofBits_def, Ideal.ofBits_def, Ideal.ofBits_zero_f32]

/-- The second layer: the same function of the first layer's output, its neighbour sums and the second set of weights
    and running statistics. -/
theorem layer2 (x0 : A64) (x1 : E2) (x2 : W64) (x3 : R64) (x4 x5 : W64) (x6 : R64) (x7 : W64)
    (x11 x12 x13 x14 x15 x16 x17 x18 : R64) :
    val_main_v87 (F := Ideal) x0 x1 x2 x3 x4 x5 x6 x7 x11 x12 x13 x14 x15 x16 x17 x18
      = bnRelu epsW x17 x18 x15 x16 (convDiv (val_main_v55 (F := Ideal) x0 x1 x2 x3 x4 x11 x12 x13 x14)
          (val_main_v45 (F := Ideal) x0 x1 x2 x3 x4 x11 x12 x13 x14) (val_main_v61 (F := Ideal) x1) x5 x7 x6) := by
  funext i
  obtain ⟨p, q, rfl⟩ : ∃ (p : Fin 100000) (q : Fin 64), i = ix2 p q := ⟨i 0, i 1, eq_ix2 i⟩
  rw [bnRelu_apply, convDiv_apply]
  -- the entry (p, q) of every elementwise operation, product and broadcast, down to the arguments, the neighbour
  -- sums and the counts
  rw [val_main_v87_apply, val_main_v86_apply, val_main_v83_apply, val_main_v80_apply, val_main_v74_apply,
    val_main_v71_apply, val_main_v68_apply, val_main_v65_apply, val_main_v70_apply, val_main_v67_apply,
    val_main_v66_apply, val_main_v73_apply, val_main_v72_apply, val_main_v79_apply, val_main_v78_apply,
    val_main_v77_apply, val_main_v76_apply, val_main_v75_apply, val_main_cst_11_apply, val_main_v82_apply,
    val_main_v81_apply, val_main_v85_apply, val_main_v84_apply, val_main_call1_v0_apply,
    val_main_call1_cst_apply]
  rw [idx_v66_v67, idx_v72_v73, idx_v78_v79, idx_v81_v82, idx_v84_v85]
  -- the product of the divided neighbour sums with the transposed left weight
  have s1 : (∑ k : Fin 64, val_main_v63 (F := Ideal) x0 x1 x2 x3 x4 x11 x12 x13 x14 (lidx_main_v65 (ix2 p q) k)
        * val_main_v64 (F := Ideal) x5 (ridx_main_v65 (ix2 p q) k))
      = ∑ k : Fin 64, Ideal.div (val_main_v55 (F := Ideal) x0 x1 x2 x3 x4 x11 x12 x13 x14 (ix2 p k))
          (val_main_v61 (F := Ideal) x1 (ix2 p (0 : Fin 1))) * x5 (ix2 q k) :=
    Finset.sum_congr rfl fun k _ => by
      rw [lidx_v65, ridx_v65, val_main_v63_apply, val_main_v62_apply, val_main_v64_apply, idx_v62, idx_v64,
        Ideal.hostDivf_def]
  -- the product of the layer's input with the transposed right weight
  have s2 : (∑ k : Fin 64, val_main_v45 (F := Ideal) x0 x1 x2 x3 x4 x11 x12 x13 x14 (lidx_main_v70 (ix2 p q) k)
        * val_main_v69 (F := Ideal) x7 (ridx_main_v70 (ix2 p q) k))
      = ∑ k : Fin 64, val_main_v45 (F := Ideal) x0 x1 x2 x3 x4 x11 x12 x13 x14 (ix2 p k) * x7 (ix2 q k) :=
    Finset.sum_congr rfl fun k _ => by rw [lidx_v70, ridx_v70, val_main_v69_apply, idx_v69]
  rw [s1, s2]
  -- the operations on the extended reals; the zero word is zero
  rw [Ideal.maximumf_def, Ideal.addf_def, Ideal.addf_def, Ideal.addf_def, Ideal.addf_def, Ideal.mulf_def, Ideal.mulf_def,
    Ideal.subf_def, Ideal.hostUnary_rsqrt_def, Ideal.ofBits_def, Ideal.ofBits_def, Ideal.ofBits_zero_f32]

/-- The third layer: the convolution alone, of the second layer's output and its neighbour sums. -/
theorem layer3 (x0 : A64) (x1 : E2) (x2 : W64) (x3 : R64) (x4 x5 : W64) (x6 : R64) (x7 x8 : W64) (x9 : R64) (x10 : W64)
    (x11 x12 x13 x14 x15 x16 x17 x18 : R64) :
    val_main_v113 (F := Ideal) x0 x1 x2 x3 x4 x5 x6 x7 x8 x9 x10 x11 x12 x13 x14 x15 x16 x17 x18
      = convDiv (val_main_v97 (F := Ideal) x0 x1 x2 x3 x4 x5 x6 x7 x11 x12 x13 x14 x15 x16 x17 x18)
          (val_main_v87 (F := Ideal) x0 x1 x2 x3 x4 x5 x6 x7 x11 x12 x13 x14 x15 x16 x17 x18) (val_main_v103 (F := Ideal) x1) x8 x10 x9 := by
  funext i
  obtain ⟨p, q, rfl⟩ : ∃ (p : Fin 100000) (q : Fin 64), i = ix2 p q := ⟨i 0, i 1, eq_ix2 i⟩
  rw [convDiv_apply]
  -- the entry (p, q) of every elementwise operation, product and broadcast, down to the arguments, the neighbour
  -- sums and the counts
  rw [val_main_v113_apply, val_main_v110_apply, val_main_v107_apply, val_main_v112_apply, val_main_v109_apply,
    val_main_v108_apply]
  rw [idx_v108_v109]
  -- the product of the divided neighbour sums with the transposed left weight
  have s1 : (∑ k : Fin 64, val_main_v105 (F := Ideal) x0 x1 x2 x3 x4 x5 x6 x7 x11 x12 x13 x14 x15 x16 x17 x18 (lidx_main_v107 (ix2 p q) k)
        * val_main_v106 (F := Ideal) x8 (ridx_main_v107 (ix2 p q) k))
      = ∑ k : Fin 64, Ideal.div (val_main_v97 (F := Ideal) x0 x1 x2 x3 x4 x5 x6 x7 x11 x12 x13 x14 x15 x16 x17 x18 (ix2 p k))
          (val_main_v103 (F := Ideal) x1 (ix2 p (0 : Fin 1))) * x8 (ix2 q k) :=
    Finset.sum_congr rfl fun k _ => by
      rw [lidx_v107, ridx_v107, val_main_v105_apply, val_main_v104_apply, val_main_v106_apply, idx_v104, idx_v106,
        Ideal.hostDivf_def]
  -- the product of the layer's input with the transposed right weight
  have s2 : (∑ k : Fin 64, val_main_v87 (F := Ideal) x0 x1 x2 x3 x4 x5 x6 x7 x11 x12 x13 x14 x15 x16 x17 x18 (lidx_main_v112 (ix2 p q) k)
        * val_main_v111 (F := Ideal) x10 (ridx_main_v112 (ix2 p q) k))
      = ∑ k : Fin 64, val_main_v87 (F := Ideal) x0 x1 x2 x3 x4 x5 x6 x7 x11 x12 x13 x14 x15 x16 x17 x18 (ix2 p k) * x10 (ix2 q k) :=
    Finset.sum_congr rfl fun k _ => by rw [lidx_v112, ridx_v112, val_main_v111_apply, idx_v111]
  rw [s1, s2]
  -- the operations on the extended reals; the zero word is zero
  rw [Ideal.addf_def, Ideal.addf_def]

end Cert.ReferenceIdeal.Layers

end
-- ==== Proof.Bridge.lean ====
/-
  The kernel program's explicit function of the arguments is the reference's.

  Layer by layer. Both programs compute the same neighbour sums of the same features (the kernel gathers a copy of the
  features in a shorter float format, which is the same array on the extended reals) and the same clipped counts.
  The kernel multiplies the sums by the reciprocal count and adds the bias last; the reference divides by the count
  and adds the bias before the second product: since a clipped count is a nonzero real, the two are one function
  (no finiteness of the features or weights is asked). The parameter vectors, which the kernel casts to one-row
  matrices, are read back as themselves. Batch normalisation, the rectifier and the classifier's tail are the
  same operations on both sides.
-/
import proofs.«164285_j20323785244835_2_alg».proof.Proof.KernelNetDefs
import proofs.«164285_j20323785244835_2_alg».proof.Proof.KernelCount
import proofs.«164285_j20323785244835_2_alg».proof.Proof.RefLayers

set_option maxRecDepth 16384

noncomputable section

namespace Cert.Bridge

open Cert.KernelIdeal.Net Cert.KernelIdeal.Count Cert.ReferenceIdeal.Read
open Cert.Dense Cert.Sage Idealize.ShloMosaic Idealize.ShloMosaic.ValueIdx

abbrev X21 := (⟨Cert.KernelIdeal.S1x64, .f32⟩ : BufTy).Contents (Elt Ideal)
abbrev X22 := (⟨Cert.KernelIdeal.S1, .f32⟩ : BufTy).Contents (Elt Ideal)

/-- The two forms of a layer's linear part on the kernel's own neighbour sums, counts and rows. -/
theorem conv_forms (e : E2) (X : B64) (h : Mat 100000 64) (wl wr : W64) (bl : R64) :
    convMul (agg e X) h (cinv e) wl wr (rowOf (row bl)) = convDiv (agg e X) h (cmax (dcol e)) wl wr bl := by
  unfold row
  rw [rowOf_reshape]
  exact convMul_eq_convDiv (agg e X) h (cmax (dcol e)) (cinv e) wl wr bl (cmax_real (dcol e))
    (fun p => cinv_apply (cmax (dcol e)) p)

/-- The first layer. -/
theorem layer1_eq (x0 : A64) (e : E2) (x2 : W64) (x3 : R64) (x4 : W64) (x11 x12 x13 x14 : R64) :
    layerBN e (truncf (F := Ideal) .bf16 x0 Cert.KernelIdeal.Facts₀.bitsLt_bf16_f32) x0 x2 x4 x3 x11 x12 x13 x14
      = val_main_v45 (F := Ideal) x0 e x2 x3 x4 x11 x12 x13 x14 := by
  rw [Cert.ReferenceIdeal.Layers.layer1]
  unfold layerBN
  rw [conv_forms]
  unfold row
  rw [rowOf_reshape, rowOf_reshape, rowOf_reshape, rowOf_reshape]
  rfl

/-- The second layer, on the first layer's output. -/
theorem layer2_eq (x0 : A64) (e : E2) (x2 : W64) (x3 : R64) (x4 x5 : W64) (x6 : R64) (x7 : W64)
    (x11 x12 x13 x14 x15 x16 x17 x18 : R64) :
    layerBN e (val_main_v45 (F := Ideal) x0 e x2 x3 x4 x11 x12 x13 x14) (val_main_v45 (F := Ideal) x0 e x2 x3 x4 x11 x12 x13 x14)
        x5 x7 x6 x15 x16 x17 x18
      = val_main_v87 (F := Ideal) x0 e x2 x3 x4 x5 x6 x7 x11 x12 x13 x14 x15 x16 x17 x18 := by
  rw [Cert.ReferenceIdeal.Layers.layer2]
  unfold layerBN
  rw [conv_forms]
  unfold row
  rw [rowOf_reshape, rowOf_reshape, rowOf_reshape, rowOf_reshape]
  rfl

/-- The third layer, on the second layer's output. -/
theorem layer3_eq (x0 : A64) (e : E2) (x2 : W64) (x3 : R64) (x4 x5 : W64) (x6 : R64) (x7 x8 : W64) (x9 : R64) (x10 : W64)
    (x11 x12 x13 x14 x15 x16 x17 x18 : R64) :
    layerPlain e (val_main_v87 (F := Ideal) x0 e x2 x3 x4 x5 x6 x7 x11 x12 x13 x14 x15 x16 x17 x18)
        (val_main_v87 (F := Ideal) x0 e x2 x3 x4 x5 x6 x7 x11 x12 x13 x14 x15 x16 x17 x18) x8 x10 x9
      = val_main_v113 (F := Ideal) x0 e x2 x3 x4 x5 x6 x7 x8 x9 x10 x11 x12 x13 x14 x15 x16 x17 x18 := by
  rw [Cert.ReferenceIdeal.Layers.layer3]
  unfold layerPlain
  rw [conv_forms]
  rfl

/-- The classifier's tail is the same operations in both programs. -/
theorem tail_eq (x0 : A64) (e : E2) (x2 : W64) (x3 : R64) (x4 x5 : W64) (x6 : R64) (x7 x8 : W64) (x9 : R64) (x10 : W64)
    (x11 x12 x13 x14 x15 x16 x17 x18 : R64) (x19 : W64) (x20 : R64) (x21 : X21) (x22 : X22) :
    tail (val_main_v113 (F := Ideal) x0 e x2 x3 x4 x5 x6 x7 x8 x9 x10 x11 x12 x13 x14 x15 x16 x17 x18) x19 x20 x21 x22
      = val_main_v132 (F := Ideal) x0 e x2 x3 x4 x5 x6 x7 x8 x9 x10 x11 x12 x13 x14 x15 x16 x17 x18 x19 x20 x21 x22 := rfl

/-- THE TWO PROGRAMS' RESULTS are one function of the arguments. -/
theorem net_eq (x0 : A64) (e : E2) (x2 : W64) (x3 : R64) (x4 x5 : W64) (x6 : R64) (x7 x8 : W64) (x9 : R64) (x10 : W64)
    (x11 x12 x13 x14 x15 x16 x17 x18 : R64) (x19 : W64) (x20 : R64) (x21 : X21) (x22 : X22) :
    knet x0 e x2 x3 x4 x5 x6 x7 x8 x9 x10 x11 x12 x13 x14 x15 x16 x17 x18 x19 x20 x21 x22
      = val_main_v132 (F := Ideal) x0 e x2 x3 x4 x5 x6 x7 x8 x9 x10 x11 x12 x13 x14 x15 x16 x17 x18 x19 x20 x21 x22 := by
  unfold knet
  rw [layer1_eq, layer2_eq, layer3_eq]
  exact tail_eq x0 e x2 x3 x4 x5 x6 x7 x8 x9 x10 x11 x12 x13 x14 x15 x16 x17 x18 x19 x20 x21 x22

end Cert.Bridge

end
-- ==== Proof.lean ====
/-
  A three-layer mean-aggregating graph convolution with batch normalisation, a mean over the nodes and a two-layer
  classifier with a logistic output, on 100000 nodes and 1600000 edges of width 64: the kernel program (three
  pipelined regions among host operations) against the plain reference.

  Per layer, for a node i with neighbour sum A(i,·), features h(i,·) and neighbour count clipped below at one c(i):
  the kernel computes  sum_k (A(i,k) · (1/c(i))) · wl(j,k) + sum_k h(i,k) · wr(j,k) + bl(j)  block of 2000 rows by
  block, the reference  sum_k (A(i,k) / c(i)) · wl(j,k) + bl(j) + sum_k h(i,k) · wr(j,k)  on the whole array. On the
  extended reals these are one function because c(i) is a nonzero real (a count of edges, clipped): dividing by it
  is multiplying by its reciprocal, whatever the other factor, and addition is commutative and associative. The
  kernel's shorter float format for stored features is the identity there. Everything else — the neighbour sums,
  the counts, batch normalisation, the rectifier, the mean and the classifier — is the same operations in both.
  The precondition (finite inputs) is not used by the value claim.

  The frames of the two kernel programs and the reference's run are the generated ones; the kernel program's run is
  re-posed with its result named (KernelRun), each region's output array is read as the layer of the arrays at its
  entry (KernelBodies, KernelArrays), the boundary contents unfold to one explicit function of the arguments
  (KernelEntries over KernelNetDefs), and that function is the reference's (Bridge over RefLayers).
-/
import proofs.«164285_j20323785244835_2_alg».proof.Defs
import proofs.«164285_j20323785244835_2_alg».proof.Proof.Gen.Kernel
import proofs.«164285_j20323785244835_2_alg».proof.Proof.Gen.Kernel.Skeleton
import proofs.«164285_j20323785244835_2_alg».proof.Proof.Gen.Kernel.Launch
import proofs.«164285_j20323785244835_2_alg».proof.Proof.Gen.Kernel.Points
import proofs.«164285_j20323785244835_2_alg».proof.Proof.Gen.Kernel.Frame
import proofs.«164285_j20323785244835_2_alg».proof.Proof.Gen.KernelIdeal
import proofs.«164285_j20323785244835_2_alg».proof.Proof.Gen.KernelIdeal.Skeleton
import proofs.«164285_j20323785244835_2_alg».proof.Proof.Gen.KernelIdeal.Launch
import proofs.«164285_j20323785244835_2_alg».proof.Proof.Gen.KernelIdeal.Points
import proofs.«164285_j20323785244835_2_alg».proof.Proof.Gen.KernelIdeal.Frame
import proofs.«164285_j20323785244835_2_alg».proof.Proof.Gen.ReferenceIdeal
import proofs.«164285_j20323785244835_2_alg».proof.Proof.Gen.ReferenceIdeal.Run
import proofs.«164285_j20323785244835_2_alg».proof.Proof.Gen.ReferenceIdeal.Read
import proofs.«164285_j20323785244835_2_alg».proof.Proof.Gen.Pre_finite_inputs
import proofs.«164285_j20323785244835_2_alg».proof.Proof.KernelEntries
import proofs.«164285_j20323785244835_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- Both programs end, from memories agreeing on the arguments, with the same result: the kernel's at its explicit
    function of the arguments, the reference's at its read-back stages, and the two are one function. -/
theorem algebraic : Cert.algebraic_KernelIdeal_ReferenceIdeal := by
  intro m ρ m' ρ' _ hagree
  refine ⟨fun c => Cert.KernelIdeal.Gen.W9 m ρ c (Proc.devRef .tc Cert.KernelIdeal.main_v78),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  show Cert.ReferenceIdeal.Value.res_main_v132 m' c
    = Cert.KernelIdeal.Gen.W9 m ρ c (Proc.devRef .tc Cert.KernelIdeal.main_v78)
  rw [Cert.KernelIdeal.Entries.result_eq m ρ c, Cert.ReferenceIdeal.Read.val_main_v132_eq,
    h0, h1, h2, h3, h4, h5, h6, h7, h8, h9, h10, h11, h12, h13, h14, h15, h16, h17, h18, h19, h20, h21, h22]
  exact (Cert.Bridge.net_eq _ _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
